-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v80)) (v1 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_v60) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64x1 .f32) (main_arg9 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64 .f32) (main_arg6 : FVec F S128x64 .f32) (main_arg7 : FVec F S64 .f32) (main_arg8 : FVec F S64x1 .f32) (main_arg9 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S128x64 .f32) (main_arg7 : FVec F S64 .f32) (main_arg8 : FVec F S64x1 .f32) (main_arg9 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S1600000x1 : Shape := ⟨2, ![1600000, 1]⟩
abbrev S1600000x64 : Shape := ⟨2, ![1600000, 64]⟩
abbrev S1x1 : Shape := ⟨2, ![1, 1]⟩
abbrev S12800x64 : Shape := ⟨2, ![12800, 64]⟩
abbrev S12800x1 : Shape := ⟨2, ![12800, 1]⟩

abbrev nBuf : Space → Nat
  | .hbm => 109
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S1700000x1, .f32⟩
  | .hbm, ⟨50, _⟩ => ⟨S100000x64, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x64, .f32⟩
  | .hbm, ⟨77, _⟩ => ⟨S1700000x64, .f32⟩
  | .hbm, ⟨78, _⟩ => ⟨S1700000x64, .f32⟩
  | .hbm, ⟨79, _⟩ => ⟨S_, .f32⟩
  | .hbm, ⟨80, _⟩ => ⟨S100000x64, .f32⟩
  | .hbm, ⟨81, _⟩ => ⟨S1700000x1, .i32⟩
  | .hbm, ⟨82, _⟩ => ⟨S100000x64, .f32⟩
  | .hbm, ⟨83, _⟩ => ⟨S1x64, .f32⟩
  | .hbm, ⟨84, _⟩ => ⟨S100000x64, .f32⟩
  | .hbm, ⟨85, _⟩ => ⟨S_, .i32⟩
  | .hbm, ⟨86, _⟩ => ⟨S1600000, .i32⟩
  | .hbm, ⟨87, _⟩ => ⟨S1600000, .i1⟩
  | .hbm, ⟨88, _⟩ => ⟨S_, .i32⟩
  | .hbm, ⟨89, _⟩ => ⟨S1600000, .i32⟩
  | .hbm, ⟨90, _⟩ => ⟨S1600000, .i32⟩
  | .hbm, ⟨91, _⟩ => ⟨S1600000, .i32⟩
  | .hbm, ⟨92, _⟩ => ⟨S1600000x1, .i32⟩
  | .hbm, ⟨93, _⟩ => ⟨S1600000x64, .f32⟩
  | .hbm, ⟨94, _⟩ => ⟨S_, .i32⟩
  | .hbm, ⟨95, _⟩ => ⟨S1600000, .i32⟩
  | .hbm, ⟨96, _⟩ => ⟨S1600000, .i1⟩
  | .hbm, ⟨97, _⟩ => ⟨S_, .i32⟩
  | .hbm, ⟨98, _⟩ => ⟨S1600000, .i32⟩
  | .hbm, ⟨99, _⟩ => ⟨S1600000, .i32⟩
  | .hbm, ⟨100, _⟩ => ⟨S1600000, .i32⟩
  | .hbm, ⟨101, _⟩ => ⟨S1600000x1, .i32⟩
  | .hbm, ⟨102, _⟩ => ⟨S1600000x64, .f32⟩
  | .hbm, ⟨103, _⟩ => ⟨S64x64, .f32⟩
  | .hbm, ⟨104, _⟩ => ⟨S64x64, .f32⟩
  | .hbm, ⟨105, _⟩ => ⟨S1x64, .f32⟩
  | .hbm, ⟨106, _⟩ => ⟨S1x1, .f32⟩
  | .hbm, ⟨107, _⟩ => ⟨S1600000x1, .f32⟩
  | .hbm, ⟨108, _⟩ => ⟨S1600000, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S12800x64, .f32⟩
  | .local _ .vmem, ⟨17, _⟩ => ⟨S12800x64, .f32⟩
  | .local _ .vmem, ⟨18, _⟩ => ⟨S12800x64, .f32⟩
  | .local _ .vmem, ⟨19, _⟩ => ⟨S12800x64, .f32⟩
  | .local _ .vmem, ⟨20, _⟩ => ⟨S64x64, .f32⟩
  | .local _ .vmem, ⟨21, _⟩ => ⟨S64x64, .f32⟩
  | .local _ .vmem, ⟨22, _⟩ => ⟨S1x64, .f32⟩
  | .local _ .vmem, ⟨23, _⟩ => ⟨S64x1, .f32⟩
  | .local _ .vmem, ⟨24, _⟩ => ⟨S1x1, .f32⟩
  | .local _ .vmem, ⟨25, _⟩ => ⟨S12800x1, .f32⟩
  | .local _ .vmem, ⟨26, _⟩ => ⟨S12800x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_14 : Ref sig .tc := ⟨.hbm, 94, rfl⟩
abbrev main_v68 : Ref sig .tc := ⟨.hbm, 95, rfl⟩
abbrev main_v69 : Ref sig .tc := ⟨.hbm, 96, rfl⟩
abbrev main_c_15 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg5_0 : Ref sig .tc := ⟨.vmem, 23, rfl⟩
abbrev cc3_stg6_0 : Ref sig .tc := ⟨.vmem, 24, rfl⟩
abbrev cc3_stg7_0 : Ref sig .tc := ⟨.vmem, 25, rfl⟩
abbrev cc3_stg7_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem3_0 : DmaSem sig := 21
abbrev cc3_sem4_0 : DmaSem sig := 22
abbrev cc3_sem5_0 : DmaSem sig := 23
abbrev cc3_sem6_0 : DmaSem sig := 24
abbrev cc3_sem7_0 : DmaSem sig := 25
abbrev cc3_sem7_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S12800x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S12800x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S12800x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S128x64_S64x64_0_0 : S128x64.Slices ![0, 0] S64x64
  slices_S128x64_S64x64_64_0 : S128x64.Slices ![64, 0] S64x64
  shapeCasts_S1_S1x1 : S1.ShapeCasts S1x1
  inb_S12800x64_S12800x64_0_0 : ∀ a, (![0, 0] : Fin 2 → Nat) a + S12800x64.size a ≤ S12800x64.size a
  h_S12800x64 : 0 < S12800x64.numel
  shapeCasts_S12800x64_S12800x64 : S12800x64.ShapeCasts S12800x64
  shapeCasts_S64x64_S64x64 : S64x64.ShapeCasts S64x64
  broadcasts_S1x64_S12800x64 : S1x64.Broadcasts S12800x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S12800x1 : S1x1.Broadcasts S12800x1
  inb_S12800x1_S12800x1_0_0 : ∀ a, (![0, 0] : Fin 2 → Nat) a + S12800x1.size a ≤ S12800x1.size a
  h_S12800x1 : 0 < S12800x1.numel
  shapeCasts_S1600000x1_S1600000 : S1600000x1.ShapeCasts S1600000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  dot_S12800x64_S64x64_S12800x64_1_0_0_1_n_n_wf : DotDims.WF S12800x64 S64x64 S12800x64 [1] [0] [0] [1] [] []
  dot_S12800x64_S64x1_S12800x1_1_0_0_1_n_n_wf : DotDims.WF S12800x64 S64x1 S12800x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S12800x64.size a ≤ S1600000x64.size a
  hwx3_0 : ∀ i : grid3.Coords, EltTy.bits .f32 = 32 ∨ (Rect.block (s := S1600000x64) S12800x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S12800x64.size a ≤ S1600000x64.size a
  hwx3_1 : ∀ i : grid3.Coords, EltTy.bits .f32 = 32 ∨ (Rect.block (s := S1600000x64) S12800x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x1.size a ≤ S64x1.size a
  hwx3_5 : ∀ i : grid3.Coords, EltTy.bits .f32 = 32 ∨ (Rect.block (s := S64x1) S64x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S12800x1.size a ≤ S1600000x1.size a
  hwx3_7 : ∀ i : grid3.Coords, EltTy.bits .f32 = 32 ∨ (Rect.block (s := S1600000x1) S12800x1.size (cc3_transform_7 i) (hinb3_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S12800x64_S64x64_S12800x64_1_0_0_1_n_n : DotDims S12800x64 S64x64 S12800x64 where
  lhsContracting := [1]
  rhsContracting := [0]
  lhsNonContracting := [0]
  rhsNonContracting := [1]
  lhsBatch := []
  rhsBatch := []
  wf := dot_S12800x64_S64x64_S12800x64_1_0_0_1_n_n_wf
def dot_S12800x64_S64x1_S12800x1_1_0_0_1_n_n : DotDims S12800x64 S64x1 S12800x1 where
  lhsContracting := [1]
  rhsContracting := [0]
  lhsNonContracting := [0]
  rhsNonContracting := [1]
  lhsBatch := []
  rhsBatch := []
  wf := dot_S12800x64_S64x1_S12800x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v67) S12800x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S12800x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v75) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v76) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v77) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg8) S64x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v78) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v79) S12800x1.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S1600000x1 : Shape := ⟨2, ![1600000, 1]⟩
abbrev S1600000x64 : Shape := ⟨2, ![1600000, 64]⟩
abbrev S1600000x128 : Shape := ⟨2, ![1600000, 128]⟩
abbrev S1x1 : Shape := ⟨2, ![1, 1]⟩

abbrev nBuf : Space → Nat
  | .hbm => 133
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S128x64, .f32⟩
  | 7 => ⟨S64, .f32⟩
  | 8 => ⟨S64x1, .f32⟩
  | 9 => ⟨S1, .f32⟩
  | 10 => ⟨S1x1600000, .i32⟩
  | 11 => ⟨S1600000, .i32⟩
  | 12 => ⟨S1x1600000, .i32⟩
  | 13 => ⟨S1600000, .i32⟩
  | 14 => ⟨S100000, .i32⟩
  | 15 => ⟨S1700000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S1700000x1, .f32⟩
  | 50 => ⟨S100000x64, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x64, .f32⟩
  | 61 => ⟨S1700000x64, .f32⟩
  | 62 => ⟨S_, .f32⟩
  | 63 => ⟨S100000x64, .f32⟩
  | 64 => ⟨S1700000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S_, .i32⟩
  | 74 => ⟨S1700000, .i32⟩
  | 75 => ⟨S1700000, .i1⟩
  | 76 => ⟨S_, .i32⟩
  | 77 => ⟨S1700000, .i32⟩
  | 78 => ⟨S1700000, .i32⟩
  | 79 => ⟨S1700000, .i32⟩
  | 80 => ⟨S1700000x1, .i32⟩
  | 81 => ⟨S1700000x64, .f32⟩
  | 82 => ⟨S1700000x64, .f32⟩
  | 83 => ⟨S1700000x64, .f32⟩
  | 84 => ⟨S_, .f32⟩
  | 85 => ⟨S100000x64, .f32⟩
  | 86 => ⟨S1700000x1, .i32⟩
  | 87 => ⟨S100000x64, .f32⟩
  | 88 => ⟨S1x64, .f32⟩
  | 89 => ⟨S100000x64, .f32⟩
  | 90 => ⟨S100000x64, .f32⟩
  | 91 => ⟨S_, .f32⟩
  | 92 => ⟨S100000x64, .f32⟩
  | 93 => ⟨S100000x64, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000x64, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x64, .f32⟩
  | 112 => ⟨S1600000x128, .f32⟩
  | 113 => ⟨S1600000x64, .f32⟩
  | 114 => ⟨S1x64, .f32⟩
  | 115 => ⟨S1600000x64, .f32⟩
  | 116 => ⟨S1600000x64, .f32⟩
  | 117 => ⟨S_, .f32⟩
  | 118 => ⟨S1600000x64, .f32⟩
  | 119 => ⟨S1600000x64, .f32⟩
  | 120 => ⟨S1600000x1, .f32⟩
  | 121 => ⟨S1x1, .f32⟩
  | 122 => ⟨S1600000x1, .f32⟩
  | 123 => ⟨S1600000x1, .f32⟩
  | 124 => ⟨S1600000x1, .f32⟩
  | 125 => ⟨S1600000x1, .f32⟩
  | 126 => ⟨S_, .f32⟩
  | 127 => ⟨S1600000x1, .f32⟩
  | _ => ⟨S100000x128, .f32⟩

abbrev hbmTy0_1 (i : Nat) : BufTy := match i % 128 with
  | 0 => ⟨S1600000x1, .f32⟩
  | 1 => ⟨S_, .f32⟩
  | 2 => ⟨S1600000x1, .f32⟩
  | 3 => ⟨S1600000x1, .f32⟩
  | 4 => ⟨S1600000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_cst : Ref sig .tc := ⟨.hbm, 69, rfl⟩
abbrev main_call1_v0 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_c_12 : Ref sig .tc := ⟨.hbm, 94, rfl⟩
abbrev main_v66 : Ref sig .tc := ⟨.hbm, 95, rfl⟩
abbrev main_v67 : Ref sig .tc := ⟨.hbm, 96, rfl⟩
abbrev main_c_13 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_14 : Ref sig .tc := ⟨.hbm, 103, rfl⟩
abbrev main_v73 : Ref sig .tc := ⟨.hbm, 104, rfl⟩
abbrev main_v74 : Ref sig .tc := ⟨.hbm, 105, rfl⟩
abbrev main_c_15 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_call3_cst : Ref sig .tc := ⟨.hbm, 117, rfl⟩
abbrev main_call3_v0 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_16 : Ref sig .tc := ⟨.hbm, 126, rfl⟩
abbrev main_v92 : Ref sig .tc := ⟨.hbm, 127, rfl⟩
abbrev main_v93 : Ref sig .tc := ⟨.hbm, 128, rfl⟩
abbrev main_cst_17 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x128_d1 : Shape.Concatenates [S1600000x64, S1600000x64] S1600000x128 1
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S1600000x1 : S_.BroadcastsInDim S1600000x1 (![] : Fin 0 → Fin S1600000x1.rank)
  shapeCasts_S1600000x1_S1600000 : S1600000x1.ShapeCasts S1600000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  dot_S1600000x128_S128x64_S1600000x64_1_0_0_1_n_n_wf : DotDims.WF S1600000x128 S128x64 S1600000x64 [1] [0] [0] [1] [] []
  dot_S1600000x64_S64x1_S1600000x1_1_0_0_1_n_n_wf : DotDims.WF S1600000x64 S64x1 S1600000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf

class Facts : Prop extends Facts₀ where

variable [Facts]
-- ==== Proof.KRun.lean ====
/-
  The idealized kernel program's run with its two results named: every weakly fair execution of @main terminates,
  nothing faulting, the argument arrays unchanged, and each result buffer holds what the fold of the host stretches
  and the four pipelines' write-backs leaves there (the last boundary's contents, `Gen.W11`, read at the result).
-/
import proofs.«165775_j61100204753674_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the segments' launch, the last thread state read against the final state; the results at the last
    boundary's contents, each argument walked back to the launch memory. -/
theorem run_values : θ_run defs (onTc (τ := τ) (main (F := F))) ⟨m, fun _ => 0, ρ⟩ (fun r => ∀ c : Dev nD,
      r.2.mem ((c.tc : Thread nD τ).loc main_v80) = W11 m ρ c (Proc.devRef .tc main_v80)
      ∧ r.2.mem ((c.tc : Thread nD τ).loc main_v60) = W11 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v80 (by decide)), h c _ (mem_uc main_v60 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c)⟩)

end Cert.KernelIdeal.RunValue

end
-- ==== Proof.Spec.lean ====
/-
  The three dense stages of the network as whole-array functions, spelt with the host operations of the
  reference program: a row-broadcast bias followed by max with zero; a matrix product of such a layer; and the
  edge classifier — two gathered feature blocks joined along the feature axis, a product with the 128×64 weight,
  bias, max with zero, a product with the 64×1 weight, bias, and 1 / (1 + exp (−·)).
-/
import proofs.«165775_j61100204753674_1_alg».proof.ReferenceIdeal
import proofs.«165775_j61100204753674_1_alg».proof.Proof.Gen.ReferenceIdeal
import Idealize.ShloMosaic.PureOps.Ideal

noncomputable section

namespace Cert.Bridge

open Idealize.ShloMosaic Cert.ReferenceIdeal Cert.ReferenceIdeal.Gen

variable {F : FTy → Type} [FloatOps F]

/-- max (A + row broadcast down the rows, 0). -/
def biasRelu (A : (⟨S100000x64, .f32⟩ : BufTy).Contents (Elt F)) (row : (⟨S1x64, .f32⟩ : BufTy).Contents (Elt F)) :
    (⟨S100000x64, .f32⟩ : BufTy).Contents (Elt F) :=
  maximumf (addf A (broadcastInDim S100000x64 ![0, 1] bcast_S1x64_S100000x64_0_1 row))
    (broadcastInDim S100000x64 ![] bcast_S_S100000x64 (constant S_ .f32 0x00000000#32))

/-- x · w for the 100000×128 features and the 128×64 weight. -/
def dense1 (x : (⟨S100000x128, .f32⟩ : BufTy).Contents (Elt F)) (w : (⟨S128x64, .f32⟩ : BufTy).Contents (Elt F)) :
    (⟨S100000x64, .f32⟩ : BufTy).Contents (Elt F) :=
  Host.dotGeneral dot_S100000x128_S128x64_S100000x64_1_0_0_1_n_n none x w

/-- max (A + row, 0) · w for the 64×64 weight. -/
def dense2 (A : (⟨S100000x64, .f32⟩ : BufTy).Contents (Elt F)) (row : (⟨S1x64, .f32⟩ : BufTy).Contents (Elt F))
    (w : (⟨S64x64, .f32⟩ : BufTy).Contents (Elt F)) : (⟨S100000x64, .f32⟩ : BufTy).Contents (Elt F) :=
  Host.dotGeneral dot_S100000x64_S64x64_S100000x64_1_0_0_1_n_n none (biasRelu A row) w

/-- The edge classifier on the gathered source and destination features. -/
def edgeMlp (hs hd : (⟨S1600000x64, .f32⟩ : BufTy).Contents (Elt F)) (wm1 : (⟨S128x64, .f32⟩ : BufTy).Contents (Elt F))
    (row : (⟨S1x64, .f32⟩ : BufTy).Contents (Elt F)) (w2 : (⟨S64x1, .f32⟩ : BufTy).Contents (Elt F))
    (b2 : (⟨S1x1, .f32⟩ : BufTy).Contents (Elt F)) : (⟨S1600000x1, .f32⟩ : BufTy).Contents (Elt F) :=
  Host.divf (broadcastInDim S1600000x1 ![] bcast_S_S1600000x1 (constant S_ .f32 0x3F800000#32))
    (addf (broadcastInDim S1600000x1 ![] bcast_S_S1600000x1 (constant S_ .f32 0x3F800000#32))
      (Host.exp (Host.negf (addf
        (Host.dotGeneral dot_S1600000x64_S64x1_S1600000x1_1_0_0_1_n_n none
          (maximumf
            (addf
              (Host.dotGeneral dot_S1600000x128_S128x64_S1600000x64_1_0_0_1_n_n none
                (concatenate S1600000x128 1 [⟨S1600000x64, hs⟩, ⟨S1600000x64, hd⟩] concatenates_S1600000x64_S1600000x64_S1600000x128_d1)
                wm1)
              (broadcastInDim S1600000x64 ![0, 1] bcast_S1x64_S1600000x64_0_1 row))
            (broadcastInDim S1600000x64 ![] bcast_S_S1600000x64 (constant S_ .f32 0x00000000#32)))
          w2)
        (broadcastInDim S1600000x1 ![0, 1] bcast_S1x1_S1600000x1_0_1 b2)))))

end Cert.Bridge

end
-- ==== Proof.LibPlainDot.lean ====
/-
  A rank-2 matrix product read at an index, on the extended reals.

  A product of an M×K by a K×N operand whose dimension numbers contract the left operand's axis 1 with the right
  operand's axis 0, with no batch axis, has at row p and column q the value  ∑ k, l (p, k) * r (k, q).  This holds
  both for the accumulating product started from the zero array and for the host's general dot, whatever name the
  program's dimension record has: a record with those six lists is the plain one.  Because the value at (p, q)
  reads only row p of the left operand, a block of rows of a product is the product of that block of rows.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- A dimension record of an M×K by K×N product with contraction [1]×[0], free axes [0] and [1] and no batch axis
    is the plain record: the side condition is a proposition, so the six lists determine it. -/
theorem eq_plain {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain M K N := by
  cases d
  simp only at h1 h2 h3 h4 h5 h6
  subst h1 h2 h3 h4 h5 h6
  rfl

/-- The plain record contracts over one axis of extent K. -/
abbrev kEquiv (M K N : Nat) : (DotDims.plain M K N).contr.Idx ≃ Fin K := contrEquiv1 (DotDims.plain M K N) K rfl rfl

/-- The left operand's index at result (p, q) and contraction position k is (p, k). -/
theorem lhsIdx_plain {M K N : Nat} (p : Fin M) (q : Fin N) (k : Fin K) :
    (DotDims.plain M K N).lhsIdx (ix2 p q) ((kEquiv M K N).symm k) = ix2 p k := by
  funext a
  apply Fin.ext
  match a with
  | ⟨0, _⟩ => rfl
  | ⟨1, _⟩ =>
    exact ((DotDims.plain M K N).lhsIdx_val_of_single rfl (ix2 p q) _).trans
      (contrEquiv1_symm_val (DotDims.plain M K N) K rfl rfl k)

/-- The right operand's index at result (p, q) and contraction position k is (k, q). -/
theorem rhsIdx_plain {M K N : Nat} (p : Fin M) (q : Fin N) (k : Fin K) :
    (DotDims.plain M K N).rhsIdx (ix2 p q) ((kEquiv M K N).symm k) = ix2 k q := by
  funext a
  apply Fin.ext
  match a with
  | ⟨0, _⟩ =>
    exact ((DotDims.plain M K N).rhsIdx_val_of_single rfl (ix2 p q) _).trans
      (contrEquiv1_symm_val (DotDims.plain M K N) K rfl rfl k)
  | ⟨1, _⟩ => rfl

/-- The sum over the plain record's contraction positions, re-indexed by k below K. -/
theorem sum_plain {M K N : Nat} {φ₁ φ₂ : FTy} (l : FVec Ideal ⟨2, ![M, K]⟩ φ₁) (r : FVec Ideal ⟨2, ![K, N]⟩ φ₂)
    (p : Fin M) (q : Fin N) :
    (∑ c : (DotDims.plain M K N).contr.Idx,
        l ((DotDims.plain M K N).lhsIdx (ix2 p q) c) * r ((DotDims.plain M K N).rhsIdx (ix2 p q) c) : EReal)
      = ∑ k : Fin K, l (ix2 p k) * r (ix2 k q) := by
  rw [← Equiv.sum_comp (kEquiv M K N).symm]
  refine Finset.sum_congr rfl fun k _ => ?_
  rw [lhsIdx_plain, rhsIdx_plain]

/-- The accumulating product started from the zero array, at (p, q): the sum over k of l (p, k) * r (k, q). -/
theorem matmul_zero_apply {M K N : Nat} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) := by
  subst hd
  rw [Ideal.matmul_constant_zero_apply]
  exact sum_plain l r p q

/-- The host's general dot at (p, q): the same sum. -/
theorem dotGeneral_apply {M K N : Nat} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) := by
  subst hd
  rw [Ideal.dotGeneral_apply]
  exact sum_plain l r p q

end Idealize.ShloMosaic.PlainDot

end
-- ==== Proof.Region0.lean ====
/-
  Region 0, the first dense stage, as one whole-array function.

  Each grid point reads a block of 10000 rows of the 100000×128 features and the whole 128×64 weight, and writes the
  product of the block by the weight, accumulated from zero, into the same rows of the result; the roundings on the
  way into the product are the identity on the extended reals.  Read at row p and column q of a block the product is
  ∑ k, x (p, k) * w (k, q); the whole-array product read at row r and column q is ∑ k, X (r, k) * w (k, q).  Row p of
  block t of the features is row 10000·t + p of the array, the row of the result that row p of block t of the result
  is, so what point t writes back is block t of the whole-array product; and every row r lies in block r / 10000, so
  the ten blocks fill the result.
-/
import proofs.«165775_j61100204753674_1_alg».proof.Proof.Gen.KernelIdeal.Frame
import proofs.«165775_j61100204753674_1_alg».proof.Proof.Spec
import proofs.«165775_j61100204753674_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem
open Idealize.ShloMosaic.Pipeline (Dat)
open Cert.KernelIdeal Cert.KernelIdeal.Gen

namespace Cert.Bridge.Region0

open Idealize.ShloMosaic.ValueIdx

/-- The body loads and stores whole blocks: both offsets are zero. -/
theorem zero_off : (![0, 0] : Fin 2 → Nat) = fun _ => 0 := funext fun a => by fin_cases a <;> rfl

/-- The body at row `p`, column `q` of a block: row `p` of the feature block against column `q` of the weight. -/
theorem body_apply (x0 : FVec Ideal ⟨2, ![10000, 128]⟩ .f32) (x1 : FVec Ideal ⟨2, ![128, 64]⟩ .f32)
    (p : Fin 10000) (q : Fin 64) :
    k0_pay1 (F := Ideal) x0 x1 (ix2 p q) = ∑ k : Fin 128, x0 (ix2 p k) * x1 (ix2 k q) := by
  unfold k0_pay1
  exact PlainDot.matmul_zero_apply dot_S10000x128_S128x64_S10000x64_1_0_0_1_n_n
    (PlainDot.eq_plain _ rfl rfl rfl rfl rfl rfl) none
    (truncf .bf16 x0 bitsLt_bf16_f32) (truncf .bf16 x1 bitsLt_bf16_f32) p q

/-- The whole-array product at row `r`, column `q`: row `r` of the features against column `q` of the weight. -/
theorem dense1_apply (X : FVec Ideal ⟨2, ![100000, 128]⟩ .f32) (W : FVec Ideal ⟨2, ![128, 64]⟩ .f32)
    (r : Fin 100000) (q : Fin 64) :
    Cert.Bridge.dense1 (F := Ideal) X W (ix2 r q) = ∑ k : Fin 128, X (ix2 r k) * W (ix2 k q) := by
  unfold Cert.Bridge.dense1
  exact PlainDot.dotGeneral_apply Cert.ReferenceIdeal.dot_S100000x128_S128x64_S100000x64_1_0_0_1_n_n
    (PlainDot.eq_plain _ rfl rfl rfl rfl rfl rfl) none .single X W r q

/-- A block entry of the body is the whole-array product at the array index it sits at, once the feature block's
    rows are the array's rows `b + ·`, the result's row is `b` plus the block's row with the column kept, and the
    loaded weight is the weight. -/
theorem block_apply (X : FVec Ideal ⟨2, ![100000, 128]⟩ .f32) (W : FVec Ideal ⟨2, ![128, 64]⟩ .f32)
    (x0 : FVec Ideal ⟨2, ![10000, 128]⟩ .f32) (x1 : FVec Ideal ⟨2, ![128, 64]⟩ .f32)
    (j : (⟨2, ![10000, 64]⟩ : Shape).Idx) (i : (⟨2, ![100000, 64]⟩ : Shape).Idx) (b : Nat)
    (hrow : (i 0).val = b + (j 0).val) (hcol : (i 1).val = (j 1).val)
    (h0 : ∀ (y : (⟨2, ![10000, 128]⟩ : Shape).Idx) (z : (⟨2, ![100000, 128]⟩ : Shape).Idx),
      (z 0).val = b + (y 0).val → (z 1).val = (y 1).val → x0 y = X z)
    (h1 : ∀ y : (⟨2, ![128, 64]⟩ : Shape).Idx, x1 y = W y) :
    k0_pay1 (F := Ideal) x0 x1 j = Cert.Bridge.dense1 (F := Ideal) X W i := by
  obtain ⟨p, q, rfl⟩ : ∃ (p : Fin 10000) (q : Fin 64), j = ix2 p q := ⟨j 0, j 1, eq_ix2 j⟩
  obtain ⟨r, q', rfl⟩ : ∃ (r : Fin 100000) (q' : Fin 64), i = ix2 r q' := ⟨i 0, i 1, eq_ix2 i⟩
  obtain rfl : q' = q := Fin.ext hcol
  rw [body_apply, dense1_apply]
  refine Finset.sum_congr rfl fun k _ => ?_
  rw [h0 (ix2 p k) (ix2 r k) hrow rfl, h1]

/-- The index maps over the grid: at point `t` the feature block and the result block are both block `t` of the rows,
    the one block of columns; the weight is its array's one block. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole-array product of the arrays the region finds. -/
theorem flushed_eq (V : (c : Dev nD) → (b : Ref sig .tc) → Buf (Elt Ideal) ((c : Thread nD τ).loc b)) (c : Dev nD)
    (t : Fin cfg0.N) :
    (dat0 (F := Ideal) V c).flushed 2 t
      = ((cfg0.win 2).blk t).view.read (Elt Ideal)
          (Cert.Bridge.dense1 (F := Ideal) (V c main_arg0) (V c main_arg2)) := by
  show (cfg0.win 2).cut (grid0.coords t) ((dat0 (F := Ideal) V c).after 2 t) = _
  rw [after0_2]
  unfold out0_2
  rw [View.canon_unit_zero zero_off]
  simp only [View.ld_unit_zero (S := S10000x128) zero_off, View.ld_unit_zero (S := S128x64) zero_off]
  obtain ⟨e0, e1, e2, e3, e4, e5⟩ := index_facts t
  funext j
  refine block_apply (V c main_arg0) (V c main_arg2) (iblk0 V c 0 t) (iblk0 V c 1 t) j
    (((cfg0.win 2).blk t).view.emb j) (t.val * 10000) ?_ ?_ ?_ ?_
  · show win0_2.index t (0 : Fin 2) * 10000 + 1 * (j 0).val = t.val * 10000 + (j 0).val
    omega
  · show win0_2.index t (1 : Fin 2) * 64 + 1 * (j 1).val = (j 1).val
    omega
  · intro y z hz0 hz1
    show V c main_arg0 (((cfg0.win 0).blk t).view.emb y) = V c main_arg0 z
    refine congrArg (V c main_arg0) (funext fun a => Fin.ext ?_)
    match a with
    | ⟨0, _⟩ => show win0_0.index t (0 : Fin 2) * 10000 + 1 * (y 0).val = (z 0).val; omega
    | ⟨1, _⟩ => show win0_0.index t (1 : Fin 2) * 128 + 1 * (y 1).val = (z 1).val; omega
  · intro y
    show V c main_arg2 (((cfg0.win 1).blk t).view.emb y) = V c main_arg2 y
    refine congrArg (V c main_arg2) (funext fun a => Fin.ext ?_)
    match a with
    | ⟨0, _⟩ => show win0_1.index t (0 : Fin 2) * 128 + 1 * (y 0).val = (y 0).val; omega
    | ⟨1, _⟩ => show win0_1.index t (1 : Fin 2) * 64 + 1 * (y 1).val = (y 1).val; omega

/-- An index of the result array lies in point `t`'s block exactly when each coordinate lies in the block's range. -/
theorem mem_block (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v32).slice (win0_2.rect t)).set ↔ _
  rw [View.set_slice_whole, Rect.mem_set_unit]
  exact Iff.rfl

/-- The ten blocks fill the result: row `r` lies in block `r / 10000`, and every point writes its block back. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨e0, e1, e2, e3, e4, e5⟩ := index_facts t
  refine ⟨t, flush0_2 t, ?_⟩
  rw [mem_block]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-- The result array after the region: the whole-array product of the feature array and the weight it found. -/
theorem value (V : (c : Dev nD) → (b : Ref sig .tc) → Buf (Elt Ideal) ((c : Thread nD τ).loc b)) (c : Dev nD) :
    (dat0 (F := Ideal) V c).arrAt 2 cfg0.N = Cert.Bridge.dense1 (F := Ideal) (V c main_arg0) (V c main_arg2) :=
  (dat0 (F := Ideal) V c).arrAt_eq_of_cover 2 (Cert.Bridge.dense1 (F := Ideal) (V c main_arg0) (V c main_arg2))
    (fun t _ => flushed_eq V c t) cover

end Cert.Bridge.Region0

end
-- ==== Proof.Region1.lean ====
/-
  Region 1: each grid point takes 10000 rows of the aggregate, adds the bias row to every row, takes the maximum
  with zero and multiplies by the 64×64 weight.  Entry (p, q) of a product reads only row p of the left factor, so
  the block written at point t is rows 10000 t … 10000 t + 9999 of the product formed on the whole 100000×64 array;
  the ten blocks cover the array, so the array the region leaves is that whole-array product.
-/
import proofs.«165775_j61100204753674_1_alg».proof.Proof.Gen.KernelIdeal.Frame
import proofs.«165775_j61100204753674_1_alg».proof.Proof.Spec
import proofs.«165775_j61100204753674_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Cert.KernelIdeal Cert.KernelIdeal.Gen
open Idealize.ShloMosaic.ValueIdx
open scoped BigOperators

namespace Cert.Bridge.Region1

/-- The block's zero offsets. -/
theorem zeroOff : (![0, 0] : Fin 2 → Nat) = fun _ => 0 := funext fun a => by fin_cases a <;> rfl

/-- The one-row window broadcast down the block's rows reads the row at column k. -/
theorem rowBcast_apply (x1 : FVec Ideal S1x64 .f32) (p : Fin 10000) (k : Fin 64) :
    broadcastTo S10000x64 x1 broadcasts_S1x64_S10000x64 (ix2 p k) = x1 (ix2 (0 : Fin 1) k) :=
  broadcastTo_apply x1 broadcasts_S1x64_S10000x64 (ix2 p k) (ix2 (0 : Fin 1) k) (fun a => match a with
    | ⟨0, _⟩ => by show (0 : Nat) = if (1 : Nat) = 1 then 0 else _; rw [if_pos rfl]
    | ⟨1, _⟩ => by show k.val = if (64 : Nat) = 1 then 0 else k.val; rw [if_neg (by decide)])

/-- The body's result at row p and column q of a block: the sum over k of max (agg (p, k) + row (0, k), 0) times
    the weight at (k, q). -/
theorem pay_apply (x0 : Vec Ideal S10000x64 .f32) (x1 : Vec Ideal S1x64 .f32) (x2 : Vec Ideal S64x64 .f32)
    (p : Fin 10000) (q : Fin 64) :
    k1_pay1 (F := Ideal) x0 x1 x2 (ix2 p q)
      = ∑ k : Fin 64, max (x0 (ix2 p k) + x1 (ix2 (0 : Fin 1) k)) (Ideal.ofBits .f32 0x00000000#32) * x2 (ix2 k q) := by
  unfold k1_pay1
  refine (PlainDot.matmul_zero_apply dot_S10000x64_S64x64_S10000x64_1_0_0_1_n_n
    (PlainDot.eq_plain _ rfl rfl rfl rfl rfl rfl) none _ _ p q).trans ?_
  refine Finset.sum_congr rfl fun k _ => ?_
  have e0 : shapeCast S10000x64 x0 shapeCasts_S10000x64_S10000x64 = x0 := shapeCast_self _ _
  have e1 : shapeCast S1x64 x1 shapeCasts_S1x64_S1x64 = x1 := shapeCast_self _ _
  show max (shapeCast S10000x64 x0 shapeCasts_S10000x64_S10000x64 (ix2 p k)
      + broadcastTo S10000x64 (shapeCast S1x64 x1 shapeCasts_S1x64_S1x64) broadcasts_S1x64_S10000x64 (ix2 p k))
      (Ideal.ofBits .f32 0x00000000#32) * x2 (ix2 k q) = _
  rw [e0, e1, rowBcast_apply]

/-- The one-row array broadcast down the 100000 rows reads the row at column k. -/
theorem rowBcastHost_apply (row : (⟨Cert.ReferenceIdeal.S1x64, .f32⟩ : BufTy).Contents (Elt Ideal)) (r : Fin 100000) (k : Fin 64) :
    broadcastInDim Cert.ReferenceIdeal.S100000x64 ![0, 1] Cert.ReferenceIdeal.Facts₀.bcast_S1x64_S100000x64_0_1 row (ix2 r k)
      = row (ix2 (0 : Fin 1) k) :=
  broadcastInDim_apply _ Cert.ReferenceIdeal.Facts₀.bcast_S1x64_S100000x64_0_1 row (ix2 r k) (ix2 (0 : Fin 1) k) (fun a => match a with
    | ⟨0, _⟩ => by show (0 : Nat) = if (1 : Nat) = 1 then 0 else r.val; rw [if_pos rfl]
    | ⟨1, _⟩ => by show k.val = if (64 : Nat) = 1 then 0 else k.val; rw [if_neg (by decide)])

/-- The scalar zero broadcast over the whole array reads zero's word. -/
theorem zeroBcastHost_apply (r : Fin 100000) (k : Fin 64) :
    broadcastInDim Cert.ReferenceIdeal.S100000x64 ![] Cert.ReferenceIdeal.Facts₀.bcast_S_S100000x64
        (constant (F := Ideal) Cert.ReferenceIdeal.S_ .f32 0x00000000#32) (ix2 r k)
      = Ideal.ofBits .f32 0x00000000#32 :=
  broadcastInDim_apply _ Cert.ReferenceIdeal.Facts₀.bcast_S_S100000x64
    (constant (F := Ideal) Cert.ReferenceIdeal.S_ .f32 0x00000000#32) (ix2 r k) ix0 (fun a => a.elim0)

/-- max (A + row, 0) at row r and column k of the whole array. -/
theorem biasRelu_apply (A : (⟨Cert.ReferenceIdeal.S100000x64, .f32⟩ : BufTy).Contents (Elt Ideal))
    (row : (⟨Cert.ReferenceIdeal.S1x64, .f32⟩ : BufTy).Contents (Elt Ideal)) (r : Fin 100000) (k : Fin 64) :
    Cert.Bridge.biasRelu (F := Ideal) A row (ix2 r k)
      = max (A (ix2 r k) + row (ix2 (0 : Fin 1) k)) (Ideal.ofBits .f32 0x00000000#32) := by
  unfold Cert.Bridge.biasRelu
  show max (A (ix2 r k) + broadcastInDim Cert.ReferenceIdeal.S100000x64 ![0, 1] Cert.ReferenceIdeal.Facts₀.bcast_S1x64_S100000x64_0_1 row (ix2 r k))
      (broadcastInDim Cert.ReferenceIdeal.S100000x64 ![] Cert.ReferenceIdeal.Facts₀.bcast_S_S100000x64
        (constant (F := Ideal) Cert.ReferenceIdeal.S_ .f32 0x00000000#32) (ix2 r k)) = _
  rw [rowBcastHost_apply, zeroBcastHost_apply]

/-- The whole-array function at row r and column q: the same sum over k. -/
theorem dense2_apply (A : (⟨Cert.ReferenceIdeal.S100000x64, .f32⟩ : BufTy).Contents (Elt Ideal))
    (row : (⟨Cert.ReferenceIdeal.S1x64, .f32⟩ : BufTy).Contents (Elt Ideal))
    (w : (⟨Cert.ReferenceIdeal.S64x64, .f32⟩ : BufTy).Contents (Elt Ideal)) (r : Fin 100000) (q : Fin 64) :
    Cert.Bridge.dense2 (F := Ideal) A row w (ix2 r q)
      = ∑ k : Fin 64, max (A (ix2 r k) + row (ix2 (0 : Fin 1) k)) (Ideal.ofBits .f32 0x00000000#32) * w (ix2 k q) := by
  unfold Cert.Bridge.dense2
  refine (PlainDot.dotGeneral_apply Cert.ReferenceIdeal.dot_S100000x64_S64x64_S100000x64_1_0_0_1_n_n
    (PlainDot.eq_plain _ rfl rfl rfl rfl rfl rfl) none _ _ _ r q).trans ?_
  refine Finset.sum_congr rfl fun k _ => ?_
  rw [biasRelu_apply]

/-- The index maps over the grid: the row-tiled windows sit at block (t, 0), the whole-array windows at (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val ≤ 9 :=
  (by decide +kernel : ∀ t : Fin grid1.N, _)

section Blocks
variable (V : (c : Dev nD) → (b : Ref sig .tc) → Buf (Elt Ideal) ((c : Thread nD τ).loc b)) (c : Dev nD)

/-- Block t of the row-tiled input is rows 10000 t … 10000 t + 9999 of its array. -/
theorem blk0_apply (t : Fin cfg1.N) (p : Fin 10000) (k : Fin 64) (r : Fin 100000) (hr : r.val = t.val * 10000 + p.val) :
    (iblk1 (F := Ideal) V c 0 t : Vec Ideal S10000x64 .f32) (ix2 p k)
      = (V c main_v44 : S100000x64.Idx → Elt Ideal .f32) (ix2 r k) := by
  obtain ⟨e0, e1, -⟩ := idx_facts t
  unfold iblk1
  rw [View.read_apply]
  show V c main_v44 _ = V c main_v44 _
  refine congrArg _ ?_
  funext a
  apply Fin.ext
  match a with
  | ⟨0, _⟩ => show win1_0.index t (0 : Fin 2) * 10000 + 1 * p.val = r.val; rw [e0, hr]; omega
  | ⟨1, _⟩ => show win1_0.index t (1 : Fin 2) * 64 + 1 * k.val = k.val; rw [e1]; omega

/-- The one-row window's block is its whole array at every point. -/
theorem blk1_apply (t : Fin cfg1.N) (k : Fin 64) :
    (iblk1 (F := Ideal) V c 1 t : Vec Ideal S1x64 .f32) (ix2 (0 : Fin 1) k)
      = (V c main_v45 : S1x64.Idx → Elt Ideal .f32) (ix2 (0 : Fin 1) k) := by
  obtain ⟨-, -, e0, e1, -⟩ := idx_facts t
  unfold iblk1
  rw [View.read_apply]
  show V c main_v45 _ = V c main_v45 _
  refine congrArg _ ?_
  funext a
  apply Fin.ext
  match a with
  | ⟨0, _⟩ => show win1_1.index t (0 : Fin 2) * 1 + 1 * 0 = 0; rw [e0]
  | ⟨1, _⟩ => show win1_1.index t (1 : Fin 2) * 64 + 1 * k.val = k.val; rw [e1]; omega

/-- The weight window's block is its whole array at every point. -/
theorem blk2_apply (t : Fin cfg1.N) (k q : Fin 64) :
    (iblk1 (F := Ideal) V c 2 t : Vec Ideal S64x64 .f32) (ix2 k q)
      = (V c main_arg4 : S64x64.Idx → Elt Ideal .f32) (ix2 k q) := by
  obtain ⟨-, -, -, -, e0, e1, -⟩ := idx_facts t
  unfold iblk1
  rw [View.read_apply]
  show V c main_arg4 _ = V c main_arg4 _
  refine congrArg _ ?_
  funext a
  apply Fin.ext
  match a with
  | ⟨0, _⟩ => show win1_2.index t (0 : Fin 2) * 64 + 1 * k.val = k.val; rw [e0]; omega
  | ⟨1, _⟩ => show win1_2.index t (1 : Fin 2) * 64 + 1 * q.val = q.val; rw [e1]; omega

end Blocks

/-- A block of rows of the product is the product of that block of rows: when x0 is rows 10000 b … of A and the
    other two blocks are the whole row and the whole weight, the body's result at (p, q) is the whole-array
    function at (10000 b + p, q). -/
theorem point (x0 : Vec Ideal S10000x64 .f32) (x1 : Vec Ideal S1x64 .f32) (x2 : Vec Ideal S64x64 .f32)
    (A : (⟨Cert.ReferenceIdeal.S100000x64, .f32⟩ : BufTy).Contents (Elt Ideal))
    (row : (⟨Cert.ReferenceIdeal.S1x64, .f32⟩ : BufTy).Contents (Elt Ideal))
    (w : (⟨Cert.ReferenceIdeal.S64x64, .f32⟩ : BufTy).Contents (Elt Ideal)) (b : Nat)
    (h0 : ∀ (p : Fin 10000) (k : Fin 64) (r : Fin 100000), r.val = b * 10000 + p.val → x0 (ix2 p k) = A (ix2 r k))
    (h1 : ∀ k : Fin 64, x1 (ix2 (0 : Fin 1) k) = row (ix2 (0 : Fin 1) k))
    (h2 : ∀ k q : Fin 64, x2 (ix2 k q) = w (ix2 k q))
    (p : Fin 10000) (q : Fin 64) (r : Fin 100000) (hr : r.val = b * 10000 + p.val) :
    k1_pay1 (F := Ideal) x0 x1 x2 (ix2 p q) = Cert.Bridge.dense2 (F := Ideal) A row w (ix2 r q) := by
  rw [pay_apply, dense2_apply]
  refine Finset.sum_congr rfl fun k _ => ?_
  rw [h0 p k r hr, h1 k, h2 k q]

section Array
variable (V : (c : Dev nD) → (b : Ref sig .tc) → Buf (Elt Ideal) ((c : Thread nD τ).loc b)) (c : Dev nD)

/-- What grid point t writes back is block t of the whole-array function of the region's input arrays. -/
theorem flushed_eq (t : Fin cfg1.N) :
    (dat1 (F := Ideal) V c).flushed 3 t
      = ((cfg1.win 3).blk t).view.read (Elt Ideal)
          (Cert.Bridge.dense2 (F := Ideal) (V c main_v44) (V c main_v45) (V c main_arg4)) := by
  show (cfg1.win 3).cut (grid1.coords t) ((dat1 V c).after 3 t) = _
  rw [after1_3]
  unfold out1_3
  rw [View.canon_unit_zero zeroOff]
  simp only [View.ld_unit_zero (S := S10000x64) zeroOff, View.ld_unit_zero (S := S1x64) zeroOff,
    View.ld_unit_zero (S := S64x64) zeroOff]
  obtain ⟨-, -, -, -, -, -, e0, e1, ht⟩ := idx_facts t
  refine funext fun (j : S10000x64.Idx) => ?_
  obtain ⟨p, q, rfl⟩ : ∃ (p : Fin 10000) (q : Fin 64), j = ix2 p q := ⟨j 0, j 1, eq_ix2 j⟩
  refine (point (iblk1 V c 0 t) (iblk1 V c 1 t) (iblk1 V c 2 t) (V c main_v44) (V c main_v45) (V c main_arg4) t.val
    (fun p k r hr => blk0_apply V c t p k r hr) (fun k => blk1_apply V c t k) (fun k q => blk2_apply V c t k q)
    p q ⟨t.val * 10000 + p.val, by have := p.isLt; omega⟩ rfl).trans ?_
  rw [View.read_apply]
  show Cert.Bridge.dense2 (F := Ideal) (V c main_v44) (V c main_v45) (V c main_arg4) _
    = Cert.Bridge.dense2 (F := Ideal) (V c main_v44) (V c main_v45) (V c main_arg4) _
  refine congrArg _ ?_
  funext a
  apply Fin.ext
  match a with
  | ⟨0, _⟩ => show t.val * 10000 + p.val = win1_3.index t (0 : Fin 2) * 10000 + 1 * p.val; rw [e0]; omega
  | ⟨1, _⟩ => show q.val = win1_3.index t (1 : Fin 2) * 64 + 1 * q.val; rw [e1]; omega

/-- An index of the output array is in point t's block iff each coordinate is in the block's range on its axis. -/
theorem mem_blk (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v46).slice (win1_3.rect t)).set ↔ _
  rw [View.set_slice_whole, Rect.mem_set_unit]
  exact Iff.rfl

/-- Row r of the output array lies in the block of point r / 10000. -/
theorem cover (i : ((cfg1.win 3).arr.view.loc (c.tc : Thread nD τ)).2.ty.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ : ∃ t : Fin cfg1.N, t.val = (i 0).val / 10000 :=
    ⟨⟨(i 0).val / 10000, by show (i 0).val / 10000 < 10; omega⟩, rfl⟩
  obtain ⟨-, -, -, -, -, -, e0, e1, -⟩ := idx_facts t
  refine ⟨t, flush1_3 t, ?_⟩
  rw [mem_blk]
  intro a
  match a with
  | ⟨0, _⟩ =>
    show win1_3.index t (0 : Fin 2) * 10000 ≤ (i 0).val ∧ (i 0).val < win1_3.index t (0 : Fin 2) * 10000 + 10000
    rw [e0, ht]; omega
  | ⟨1, _⟩ =>
    show win1_3.index t (1 : Fin 2) * 64 ≤ (i 1).val ∧ (i 1).val < win1_3.index t (1 : Fin 2) * 64 + 64
    rw [e1]; omega

end Array

/-- The output array after all grid points have written back is max (agg + row, 0) · w of the region's inputs. -/
theorem value (V : (c : Dev nD) → (b : Ref sig .tc) → Buf (Elt Ideal) ((c : Thread nD τ).loc b)) (c : Dev nD) :
    (dat1 (F := Ideal) V c).arrAt 3 cfg1.N = Cert.Bridge.dense2 (F := Ideal) (V c main_v44) (V c main_v45) (V c main_arg4) :=
  (dat1 (F := Ideal) V c).arrAt_eq_of_cover 3
    (Cert.Bridge.dense2 (F := Ideal) (V c main_v44) (V c main_v45) (V c main_arg4))
    (fun t _ => flushed_eq V c t) (cover c)

end Cert.Bridge.Region1

end
-- ==== Proof.Region2.lean ====
/-
  Region 2, the bias and rectifier stage, as one whole-array function.

  Each grid point reads a block of 10000 rows of the aggregated features and the whole 1×64 bias row, and writes
  max (features + bias row, 0) into the same rows of the result.  Read at row p and column q of a block this is
  max (x (p, q) + b (0, q), 0); the whole-array function read at row r and column q is max (A (r, q) + b (0, q), 0).
  Block t of the features is rows 10000·t … 10000·t + 9999 of the array, exactly the rows block t of the result
  occupies, so what point t writes back is block t of the whole-array function; and every row r lies in block
  r / 10000, so the ten blocks fill the result.
-/
import proofs.«165775_j61100204753674_1_alg».proof.Proof.Gen.KernelIdeal.Frame
import proofs.«165775_j61100204753674_1_alg».proof.Proof.Spec
import proofs.«165775_j61100204753674_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Cert.KernelIdeal Cert.KernelIdeal.Gen

namespace Cert.Bridge.Region2

open Idealize.ShloMosaic.ValueIdx

/-- The body loads and stores whole blocks: both offsets are zero. -/
theorem zero_off : (![0, 0] : Fin 2 → Nat) = fun _ => 0 := funext fun a => by fin_cases a <;> rfl

/-- The body at row `p`, column `q` of a block: the entry plus the bias of that column, or zero when that is larger. -/
theorem body_apply (x0 : FVec Ideal ⟨2, ![10000, 64]⟩ .f32) (x1 : FVec Ideal ⟨2, ![1, 64]⟩ .f32)
    (p : Fin 10000) (q : Fin 64) :
    k2_pay1 (F := Ideal) x0 x1 (ix2 p q)
      = max (x0 (ix2 p q) + x1 (ix2 (0 : Fin 1) q)) (Ideal.ofBits .f32 0x00000000#32) := by
  unfold k2_pay1
  rw [maximumf_apply, addf_apply, shapeCast_self, shapeCast_self, broadcastTo_1b_ab_apply]
  rfl

/-- The whole-array function at row `r`, column `q`: the same expression of the array's entry and the bias row. -/
theorem biasRelu_apply (A : FVec Ideal ⟨2, ![100000, 64]⟩ .f32) (row : FVec Ideal ⟨2, ![1, 64]⟩ .f32)
    (r : Fin 100000) (q : Fin 64) :
    Cert.Bridge.biasRelu (F := Ideal) A row (ix2 r q)
      = max (A (ix2 r q) + row (ix2 (0 : Fin 1) q)) (Ideal.ofBits .f32 0x00000000#32) := by
  unfold Cert.Bridge.biasRelu
  rw [maximumf_apply, addf_apply]
  refine congrArg₂ max (congrArg (A (ix2 r q) + ·) ?_) ?_
  · exact broadcastInDim_apply _ _ row (ix2 r q) (ix2 (0 : Fin 1) q) (fun a => match a with
      | ⟨0, _⟩ => by show 0 = if (1 : Nat) = 1 then 0 else r.val; rw [if_pos rfl]
      | ⟨1, _⟩ => by show q.val = if (64 : Nat) = 1 then 0 else q.val; rw [if_neg (by decide)])
  · exact broadcastInDim_apply _ _ _ (ix2 r q) (fun a => a.elim0) (fun a => a.elim0)

/-- A block entry of the body is the whole-array function at the array index it sits at, once the block's entry is
    the array's there, the column is kept, and the loaded bias row is the bias row. -/
theorem block_apply (A : FVec Ideal ⟨2, ![100000, 64]⟩ .f32) (row : FVec Ideal ⟨2, ![1, 64]⟩ .f32)
    (x0 : FVec Ideal ⟨2, ![10000, 64]⟩ .f32) (x1 : FVec Ideal ⟨2, ![1, 64]⟩ .f32)
    (j : (⟨2, ![10000, 64]⟩ : Shape).Idx) (i : (⟨2, ![100000, 64]⟩ : Shape).Idx)
    (hcol : (i 1).val = (j 1).val) (h0 : x0 j = A i)
    (h1 : ∀ q : Fin 64, x1 (ix2 (0 : Fin 1) q) = row (ix2 (0 : Fin 1) q)) :
    k2_pay1 (F := Ideal) x0 x1 j = Cert.Bridge.biasRelu (F := Ideal) A row i := by
  obtain ⟨p, q, rfl⟩ : ∃ (p : Fin 10000) (q : Fin 64), j = ix2 p q := ⟨j 0, j 1, eq_ix2 j⟩
  obtain ⟨r, q', rfl⟩ : ∃ (r : Fin 100000) (q' : Fin 64), i = ix2 r q' := ⟨i 0, i 1, eq_ix2 i⟩
  obtain rfl : q' = q := Fin.ext hcol
  rw [body_apply, biasRelu_apply, h0, h1]

/-- The index maps over the grid: at point `t` the feature block and the result block are both block `t` of the rows,
    the one block of columns; the bias row is its array's one block. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole-array function of the arrays the region finds. -/
theorem flushed_eq (V : (c : Dev nD) → (b : Ref sig .tc) → Buf (Elt Ideal) ((c : Thread nD τ).loc b)) (c : Dev nD)
    (t : Fin cfg2.N) :
    (dat2 (F := Ideal) V c).flushed 2 t
      = ((cfg2.win 2).blk t).view.read (Elt Ideal)
          (Cert.Bridge.biasRelu (F := Ideal) (V c main_v58) (V c main_v59)) := by
  show (cfg2.win 2).cut (grid2.coords t) ((dat2 (F := Ideal) V c).after 2 t) = _
  rw [after2_2]
  unfold out2_2
  rw [View.canon_unit_zero zero_off]
  simp only [View.ld_unit_zero (S := S10000x64) zero_off, View.ld_unit_zero (S := S1x64) zero_off]
  obtain ⟨e0, e1, e2, e3, e4, e5⟩ := index_facts t
  funext j
  refine block_apply (V c main_v58) (V c main_v59) (iblk2 V c 0 t) (iblk2 V c 1 t) j
    (((cfg2.win 2).blk t).view.emb j) ?_ ?_ ?_
  · show win2_2.index t (1 : Fin 2) * 64 + 1 * (j 1).val = (j 1).val
    omega
  · show V c main_v58 (((cfg2.win 0).blk t).view.emb j) = V c main_v58 (((cfg2.win 2).blk t).view.emb j)
    refine congrArg (V c main_v58) (funext fun a => Fin.ext ?_)
    match a with
    | ⟨0, _⟩ =>
      show win2_0.index t (0 : Fin 2) * 10000 + 1 * (j 0).val = win2_2.index t (0 : Fin 2) * 10000 + 1 * (j 0).val
      omega
    | ⟨1, _⟩ =>
      show win2_0.index t (1 : Fin 2) * 64 + 1 * (j 1).val = win2_2.index t (1 : Fin 2) * 64 + 1 * (j 1).val
      omega
  · intro q
    show V c main_v59 (((cfg2.win 1).blk t).view.emb (ix2 (0 : Fin 1) q)) = V c main_v59 (ix2 (0 : Fin 1) q)
    refine congrArg (V c main_v59) (funext fun a => Fin.ext ?_)
    match a with
    | ⟨0, _⟩ => show win2_1.index t (0 : Fin 2) * 1 + 1 * 0 = 0; omega
    | ⟨1, _⟩ => show win2_1.index t (1 : Fin 2) * 64 + 1 * q.val = q.val; omega

/-- An index of the result array lies in point `t`'s block exactly when each coordinate lies in the block's range. -/
theorem mem_block (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v60).slice (win2_2.rect t)).set ↔ _
  rw [View.set_slice_whole, Rect.mem_set_unit]
  exact Iff.rfl

/-- The ten blocks fill the result: row `r` lies in block `r / 10000`, and every point writes its block back. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨e0, e1, e2, e3, e4, e5⟩ := index_facts t
  refine ⟨t, flush2_2 t, ?_⟩
  rw [mem_block]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 64 ≤ (i 1).val ∧ (i 1).val < win2_2.index t (1 : Fin 2) * 64 + 64
    omega

/-- The result array after the region: the whole-array function of the feature array and the bias row it found. -/
theorem value (V : (c : Dev nD) → (b : Ref sig .tc) → Buf (Elt Ideal) ((c : Thread nD τ).loc b)) (c : Dev nD) :
    (dat2 (F := Ideal) V c).arrAt 2 cfg2.N = Cert.Bridge.biasRelu (F := Ideal) (V c main_v58) (V c main_v59) :=
  (dat2 (F := Ideal) V c).arrAt_eq_of_cover 2 (Cert.Bridge.biasRelu (F := Ideal) (V c main_v58) (V c main_v59))
    (fun t _ => flushed_eq V c t) cover

end Cert.Bridge.Region2

end
-- ==== Proof.Region3.lean ====
/-
  Region 3: each grid point takes 12800 rows of the gathered source and destination features, multiplies them by the
  two 64×64 halves of the first weight and adds the two products, adds the bias row, takes the maximum with zero,
  multiplies by the 64×1 weight, adds the bias and applies 1 / (1 + exp (−·)).  The sum over the 128 joined feature
  columns splits at 64 into the sum over the source columns and the sum over the destination columns, and the two
  halves of the weight are its rows 0 … 63 and 64 … 127; so the block's value at row p is the whole-array classifier
  at row 12800 t + p, and the 125 blocks cover the 1600000 rows.
-/
import proofs.«165775_j61100204753674_1_alg».proof.Proof.Gen.KernelIdeal.Frame
import proofs.«165775_j61100204753674_1_alg».proof.Proof.Spec
import proofs.«165775_j61100204753674_1_alg».proof.Proof.LibPlainDot
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx
open Cert.KernelIdeal Cert.KernelIdeal.Gen
open scoped BigOperators

namespace Cert.Bridge.Region3

/-- The accumulating 12800×64 by 64×64 product from the zero array, at (p, j). -/
theorem mm64 (l : FVec Ideal S12800x64 .bf16) (r : FVec Ideal S64x64 .bf16) (p : Fin 12800) (j : Fin 64) :
    matmul dot_S12800x64_S64x64_S12800x64_1_0_0_1_n_n none l r (constant (F := Ideal) S12800x64 .f32 0x00000000#32) (ix2 p j)
      = ∑ k : Fin 64, l (ix2 p k) * r (ix2 k j) :=
  PlainDot.matmul_zero_apply (M := 12800) (K := 64) (N := 64) _ (PlainDot.eq_plain _ rfl rfl rfl rfl rfl rfl) none l r p j

/-- The accumulating 12800×64 by 64×1 product from the zero array, at (p, q). -/
theorem mm1 (l : FVec Ideal S12800x64 .bf16) (r : FVec Ideal S64x1 .bf16) (p : Fin 12800) (q : Fin 1) :
    matmul dot_S12800x64_S64x1_S12800x1_1_0_0_1_n_n none l r (constant (F := Ideal) S12800x1 .f32 0x00000000#32) (ix2 p q)
      = ∑ j : Fin 64, l (ix2 p j) * r (ix2 j q) :=
  PlainDot.matmul_zero_apply (M := 12800) (K := 64) (N := 1) _ (PlainDot.eq_plain _ rfl rfl rfl rfl rfl rfl) none l r p q

set_option maxHeartbeats 400000 in
/-- The block payload at row p: the two 64-term products added, the row added, max with zero, the product with the
    column weight, the bias, and 1 / (1 + exp (−·)). -/
theorem pay_apply (x0 x1 : Vec Ideal S12800x64 .f32) (x2 x3 : Vec Ideal S64x64 .f32) (x4 : Vec Ideal S1x64 .f32)
    (x5 : Vec Ideal S64x1 .f32) (x6 : Vec Ideal S1x1 .f32) (p : Fin 12800) (q : Fin 1) :
    k3_pay1 (F := Ideal) x0 x1 x2 x3 x4 x5 x6 (ix2 p q)
      = Ideal.logistic ((∑ j : Fin 64,
            max ((∑ k : Fin 64, x0 (ix2 p k) * x2 (ix2 k j)) + (∑ k : Fin 64, x1 (ix2 p k) * x3 (ix2 k j))
                  + x4 (ix2 (0 : Fin 1) j)) (Ideal.ofBits .f32 0x00000000#32) * x5 (ix2 j q))
          + x6 (ix2 (0 : Fin 1) q)) := by
  unfold k3_pay1
  refine congrArg Ideal.logistic ?_
  simp only [shapeCast_self]
  rw [addf_apply, mm1, broadcastTo_1b_ab_apply (a := 12800) (b := 1)]
  refine congrArg (fun a : EReal => a + x6 (ix2 (0 : Fin 1) q)) (Finset.sum_congr rfl fun j _ => ?_)
  rw [truncf_apply, truncf_apply, maximumf_apply, addf_apply, addf_apply, mm64, mm64, broadcast_apply,
    broadcastTo_1b_ab_apply (a := 12800) (b := 64)]
  simp only [truncf_apply]
  rfl

/-- A sum over 128 terms is the sum of its first 64 and its last 64. -/
theorem sum_split (f : Fin 128 → EReal) :
    ∑ k : Fin 128, f k = (∑ k : Fin 64, f (Fin.castAdd 64 k : Fin (64 + 64))) + ∑ k : Fin 64, f (Fin.natAdd 64 k : Fin (64 + 64)) :=
  Fin.sum_univ_add (a := 64) (b := 64) f

/-- The host's quotient, exponential and negation at an index. -/
theorem hostDivf_apply {s : Shape} (a b : FVec Ideal s .f32) (i : s.Idx) : Host.divf a b i = Ideal.div (a i) (b i) := rfl
theorem hostExp_apply {s : Shape} (a : FVec Ideal s .f32) (i : s.Idx) : Host.exp a i = Ideal.exp (a i) := rfl
theorem hostNegf_apply {s : Shape} (a : FVec Ideal s .f32) (i : s.Idx) : Host.negf a i = -(a i) := rfl

/-- A scalar broadcast to every index reads the scalar. -/
theorem bcastScalar_apply {t : Shape} (h : Cert.ReferenceIdeal.S_.BroadcastsInDim t (![] : Fin 0 → Fin t.rank))
    (y : Cert.ReferenceIdeal.S_.Idx → EReal) (j : t.Idx) : broadcastInDim t ![] h y j = y (fun a => a.elim0) :=
  broadcastInDim_apply _ h y j _ (fun a => a.elim0)

/-- The [1,64] row broadcast down 1600000 rows reads the row at the column. -/
theorem bcastRow_apply (row : (⟨2, ![1, 64]⟩ : Shape).Idx → EReal) (P : Fin 1600000) (j : Fin 64) :
    broadcastInDim Cert.ReferenceIdeal.S1600000x64 ![0, 1] Cert.ReferenceIdeal.Gen.bcast_S1x64_S1600000x64_0_1 row (ix2 P j)
      = row (ix2 (0 : Fin 1) j) :=
  broadcastInDim_apply _ _ row (ix2 P j) (ix2 (0 : Fin 1) j) (fun a => by match a with | ⟨0, _⟩ => rfl | ⟨1, _⟩ => rfl)

/-- The [1,1] bias broadcast down 1600000 rows reads the one entry. -/
theorem bcastBias_apply (b2 : (⟨2, ![1, 1]⟩ : Shape).Idx → EReal) (P : Fin 1600000) (q : Fin 1) :
    broadcastInDim Cert.ReferenceIdeal.S1600000x1 ![0, 1] Cert.ReferenceIdeal.Gen.bcast_S1x1_S1600000x1_0_1 b2 (ix2 P q)
      = b2 (ix2 (0 : Fin 1) q) :=
  broadcastInDim_apply _ _ b2 (ix2 P q) (ix2 (0 : Fin 1) q) (fun a => by
    match a with
    | ⟨0, _⟩ => rfl
    | ⟨1, _⟩ => show q.val = 0; omega)

/-- The host's 1600000×128 by 128×64 product at (P, j). -/
theorem dg128 (l : FVec Ideal Cert.ReferenceIdeal.S1600000x128 .f32) (r : FVec Ideal Cert.ReferenceIdeal.S128x64 .f32) (P : Fin 1600000) (j : Fin 64) :
    Host.dotGeneral Cert.ReferenceIdeal.dot_S1600000x128_S128x64_S1600000x64_1_0_0_1_n_n none l r (ix2 P j)
      = ∑ k : Fin 128, l (ix2 P k) * r (ix2 k j) :=
  PlainDot.dotGeneral_apply (M := 1600000) (K := 128) (N := 64) _ (PlainDot.eq_plain _ rfl rfl rfl rfl rfl rfl) none .single l r P j

/-- The host's 1600000×64 by 64×1 product at (P, q). -/
theorem dg1 (l : FVec Ideal Cert.ReferenceIdeal.S1600000x64 .f32) (r : FVec Ideal Cert.ReferenceIdeal.S64x1 .f32) (P : Fin 1600000) (q : Fin 1) :
    Host.dotGeneral Cert.ReferenceIdeal.dot_S1600000x64_S64x1_S1600000x1_1_0_0_1_n_n none l r (ix2 P q)
      = ∑ j : Fin 64, l (ix2 P j) * r (ix2 j q) :=
  PlainDot.dotGeneral_apply (M := 1600000) (K := 64) (N := 1) _ (PlainDot.eq_plain _ rfl rfl rfl rfl rfl rfl) none .single l r P q

/-- The two feature blocks joined along the feature axis: columns below 64 read the first block. -/
theorem cat_left (hs hd : Cert.ReferenceIdeal.S1600000x64.Idx → EReal) (P : Fin 1600000) (k : Fin 64) :
    concatenate Cert.ReferenceIdeal.S1600000x128 1 [⟨Cert.ReferenceIdeal.S1600000x64, hs⟩, ⟨Cert.ReferenceIdeal.S1600000x64, hd⟩]
        Cert.ReferenceIdeal.Gen.concatenates_S1600000x64_S1600000x64_S1600000x128_d1 (ix2 P (Fin.castAdd 64 k : Fin (64 + 64)))
      = hs (ix2 P k) :=
  concatenate_pair_apply_left (t := Cert.ReferenceIdeal.S1600000x128) 1 hs hd _ _ rfl (ix2 P k) (fun b => by match b with | ⟨0, _⟩ => rfl | ⟨1, _⟩ => rfl)

/-- Columns from 64 on read the second block, 64 columns back. -/
theorem cat_right (hs hd : Cert.ReferenceIdeal.S1600000x64.Idx → EReal) (P : Fin 1600000) (k : Fin 64) :
    concatenate Cert.ReferenceIdeal.S1600000x128 1 [⟨Cert.ReferenceIdeal.S1600000x64, hs⟩, ⟨Cert.ReferenceIdeal.S1600000x64, hd⟩]
        Cert.ReferenceIdeal.Gen.concatenates_S1600000x64_S1600000x64_S1600000x128_d1 (ix2 P (Fin.natAdd 64 k : Fin (64 + 64)))
      = hd (ix2 P k) :=
  concatenate_pair_apply_right (t := Cert.ReferenceIdeal.S1600000x128) 1 hs hd _ _ rfl rfl (ix2 P k)
    (fun b hb => by match b with | ⟨0, _⟩ => rfl | ⟨1, _⟩ => exact absurd rfl hb)
    (by show k.val + 64 = 64 + k.val; omega)

set_option maxHeartbeats 400000 in
/-- The classifier at row P of the whole array. -/
theorem edgeMlp_apply (hs hd : (⟨Cert.ReferenceIdeal.S1600000x64, .f32⟩ : BufTy).Contents (Elt Ideal))
    (wm1 : (⟨Cert.ReferenceIdeal.S128x64, .f32⟩ : BufTy).Contents (Elt Ideal))
    (row : (⟨Cert.ReferenceIdeal.S1x64, .f32⟩ : BufTy).Contents (Elt Ideal))
    (w2 : (⟨Cert.ReferenceIdeal.S64x1, .f32⟩ : BufTy).Contents (Elt Ideal))
    (b2 : (⟨Cert.ReferenceIdeal.S1x1, .f32⟩ : BufTy).Contents (Elt Ideal)) (P : Fin 1600000) (q : Fin 1) :
    Cert.Bridge.edgeMlp (F := Ideal) hs hd wm1 row w2 b2 (ix2 P q)
      = Ideal.logistic ((∑ j : Fin 64,
            max ((∑ k : Fin 64, hs (ix2 P k) * wm1 (ix2 (Fin.castAdd 64 k : Fin (64 + 64)) j))
                  + (∑ k : Fin 64, hd (ix2 P k) * wm1 (ix2 (Fin.natAdd 64 k : Fin (64 + 64)) j))
                  + row (ix2 (0 : Fin 1) j)) (Ideal.ofBits .f32 0x00000000#32) * w2 (ix2 j q))
          + b2 (ix2 (0 : Fin 1) q)) := by
  unfold Cert.Bridge.edgeMlp Ideal.logistic
  rw [hostDivf_apply, addf_apply, hostExp_apply, hostNegf_apply, addf_apply, bcastScalar_apply, constant_apply,
    Ideal.ofBits_one_f32, dg1, bcastBias_apply]
  refine congrArg (fun a : EReal => Ideal.div 1 (1 + Ideal.exp (-(a + b2 (ix2 (0 : Fin 1) q))))) (Finset.sum_congr rfl fun j _ => ?_)
  rw [maximumf_apply, addf_apply, dg128, bcastRow_apply, bcastScalar_apply, constant_apply, sum_split]
  simp only [cat_left, cat_right]

/-- The block's zero offsets. -/
theorem zeroOff : (![0, 0] : Fin 2 → Nat) = fun _ => 0 := funext fun a => by fin_cases a <;> rfl

/-- Rows 0 … 63 of the 128×64 weight: the slice at offset (0, 0) reads the weight at the same row. -/
theorem sliceTop_apply (wm1 : Cert.ReferenceIdeal.S128x64.Idx → EReal) (h : S128x64.Slices ![0, 0] S64x64) (k j : Fin 64) :
    extractStridedSlice S64x64 ![0, 0] wm1 h (ix2 k j) = wm1 (ix2 (Fin.castAdd 64 k : Fin (64 + 64)) j) :=
  extractStridedSlice_apply _ wm1 h (ix2 k j) _ (fun a => by
    match a with
    | ⟨0, _⟩ => show k.val = 0 + k.val; omega
    | ⟨1, _⟩ => show j.val = 0 + j.val; omega)

/-- Rows 64 … 127 of the weight: the slice at offset (64, 0) reads the weight 64 rows further down. -/
theorem sliceBot_apply (wm1 : Cert.ReferenceIdeal.S128x64.Idx → EReal) (h : S128x64.Slices ![64, 0] S64x64) (k j : Fin 64) :
    extractStridedSlice S64x64 ![64, 0] wm1 h (ix2 k j) = wm1 (ix2 (Fin.natAdd 64 k : Fin (64 + 64)) j) :=
  extractStridedSlice_apply _ wm1 h (ix2 k j) _ (fun a => by
    match a with
    | ⟨0, _⟩ => show 64 + k.val = 64 + k.val; rfl
    | ⟨1, _⟩ => show j.val = 0 + j.val; omega)

/-- A block of rows of the classifier is the classifier of that block of rows: when x0, x1 are the rows of hs, hd
    under the block, x2, x3 the two row halves of the 128×64 weight and the other blocks the whole arrays, the body's
    result at row p is the whole-array function at the array row P. -/
theorem point (x0 x1 : Vec Ideal S12800x64 .f32) (x2 x3 : Vec Ideal S64x64 .f32) (x4 : Vec Ideal S1x64 .f32)
    (x5 : Vec Ideal S64x1 .f32) (x6 : Vec Ideal S1x1 .f32)
    (hs hd : (⟨Cert.ReferenceIdeal.S1600000x64, .f32⟩ : BufTy).Contents (Elt Ideal))
    (wm1 : (⟨Cert.ReferenceIdeal.S128x64, .f32⟩ : BufTy).Contents (Elt Ideal))
    (row : (⟨Cert.ReferenceIdeal.S1x64, .f32⟩ : BufTy).Contents (Elt Ideal))
    (w2 : (⟨Cert.ReferenceIdeal.S64x1, .f32⟩ : BufTy).Contents (Elt Ideal))
    (b2 : (⟨Cert.ReferenceIdeal.S1x1, .f32⟩ : BufTy).Contents (Elt Ideal))
    (p : Fin 12800) (q : Fin 1) (P : Fin 1600000)
    (h0 : ∀ k : Fin 64, x0 (ix2 p k) = hs (ix2 P k))
    (h1 : ∀ k : Fin 64, x1 (ix2 p k) = hd (ix2 P k))
    (h2 : ∀ k j : Fin 64, x2 (ix2 k j) = wm1 (ix2 (Fin.castAdd 64 k : Fin (64 + 64)) j))
    (h3 : ∀ k j : Fin 64, x3 (ix2 k j) = wm1 (ix2 (Fin.natAdd 64 k : Fin (64 + 64)) j))
    (h4 : ∀ j : Fin 64, x4 (ix2 (0 : Fin 1) j) = row (ix2 (0 : Fin 1) j))
    (h5 : ∀ (j : Fin 64) (q : Fin 1), x5 (ix2 j q) = w2 (ix2 j q))
    (h6 : ∀ q : Fin 1, x6 (ix2 (0 : Fin 1) q) = b2 (ix2 (0 : Fin 1) q)) :
    k3_pay1 (F := Ideal) x0 x1 x2 x3 x4 x5 x6 (ix2 p q)
      = Cert.Bridge.edgeMlp (F := Ideal) hs hd wm1 row w2 b2 (ix2 P q) := by
  rw [pay_apply, edgeMlp_apply]
  simp only [h0, h1, h2, h3, h4, h5, h6]

/-- The index maps over the grid: the row-tiled windows sit at block (t, 0). -/
theorem idx_row0 : ∀ t : Fin cfg3.N, win3_0.index t (0 : Fin 2) = t.val ∧ win3_0.index t (1 : Fin 2) = 0 :=
  (by decide +kernel : ∀ t : Fin grid3.N, _)
theorem idx_row1 : ∀ t : Fin cfg3.N, win3_1.index t (0 : Fin 2) = t.val ∧ win3_1.index t (1 : Fin 2) = 0 :=
  (by decide +kernel : ∀ t : Fin grid3.N, _)
theorem idx_row7 : ∀ t : Fin cfg3.N, win3_7.index t (0 : Fin 2) = t.val ∧ win3_7.index t (1 : Fin 2) = 0 ∧ t.val ≤ 124 :=
  (by decide +kernel : ∀ t : Fin grid3.N, _)
/-- The whole-array windows sit at block (0, 0) at every point. -/
theorem idx_whole2 : ∀ t : Fin cfg3.N, win3_2.index t (0 : Fin 2) = 0 ∧ win3_2.index t (1 : Fin 2) = 0 :=
  (by decide +kernel : ∀ t : Fin grid3.N, _)
theorem idx_whole3 : ∀ t : Fin cfg3.N, win3_3.index t (0 : Fin 2) = 0 ∧ win3_3.index t (1 : Fin 2) = 0 :=
  (by decide +kernel : ∀ t : Fin grid3.N, _)
theorem idx_whole4 : ∀ t : Fin cfg3.N, win3_4.index t (0 : Fin 2) = 0 ∧ win3_4.index t (1 : Fin 2) = 0 :=
  (by decide +kernel : ∀ t : Fin grid3.N, _)
theorem idx_whole5 : ∀ t : Fin cfg3.N, win3_5.index t (0 : Fin 2) = 0 ∧ win3_5.index t (1 : Fin 2) = 0 :=
  (by decide +kernel : ∀ t : Fin grid3.N, _)
theorem idx_whole6 : ∀ t : Fin cfg3.N, win3_6.index t (0 : Fin 2) = 0 ∧ win3_6.index t (1 : Fin 2) = 0 :=
  (by decide +kernel : ∀ t : Fin grid3.N, _)

section Blocks
variable (V : (c : Dev nD) → (b : Ref sig .tc) → Buf (Elt Ideal) ((c : Thread nD τ).loc b)) (c : Dev nD)

/-- Block t of the source features is rows 12800 t … 12800 t + 12799 of its array. -/
theorem blk0_apply (t : Fin cfg3.N) (p : Fin 12800) (k : Fin 64) (P : Fin 1600000) (hP : P.val = t.val * 12800 + p.val) :
    (iblk3 (F := Ideal) V c 0 t : Vec Ideal S12800x64 .f32) (ix2 p k)
      = (V c main_v67 : S1600000x64.Idx → Elt Ideal .f32) (ix2 P k) := by
  obtain ⟨e0, e1⟩ := idx_row0 t
  unfold iblk3
  rw [View.read_apply]
  show V c main_v67 _ = V c main_v67 _
  refine congrArg _ ?_
  funext a
  apply Fin.ext
  match a with
  | ⟨0, _⟩ => show win3_0.index t (0 : Fin 2) * 12800 + 1 * p.val = P.val; rw [e0, hP]; omega
  | ⟨1, _⟩ => show win3_0.index t (1 : Fin 2) * 64 + 1 * k.val = k.val; rw [e1] <;> omega

/-- Block t of the destination features is the same rows of its array. -/
theorem blk1_apply (t : Fin cfg3.N) (p : Fin 12800) (k : Fin 64) (P : Fin 1600000) (hP : P.val = t.val * 12800 + p.val) :
    (iblk3 (F := Ideal) V c 1 t : Vec Ideal S12800x64 .f32) (ix2 p k)
      = (V c main_v74 : S1600000x64.Idx → Elt Ideal .f32) (ix2 P k) := by
  obtain ⟨e0, e1⟩ := idx_row1 t
  unfold iblk3
  rw [View.read_apply]
  show V c main_v74 _ = V c main_v74 _
  refine congrArg _ ?_
  funext a
  apply Fin.ext
  match a with
  | ⟨0, _⟩ => show win3_1.index t (0 : Fin 2) * 12800 + 1 * p.val = P.val; rw [e0, hP]; omega
  | ⟨1, _⟩ => show win3_1.index t (1 : Fin 2) * 64 + 1 * k.val = k.val; rw [e1] <;> omega

/-- The first weight half's block is its whole array at every point. -/
theorem blk2_apply (t : Fin cfg3.N) (k j : Fin 64) :
    (iblk3 (F := Ideal) V c 2 t : Vec Ideal S64x64 .f32) (ix2 k j)
      = (V c main_v75 : S64x64.Idx → Elt Ideal .f32) (ix2 k j) := by
  obtain ⟨e0, e1⟩ := idx_whole2 t
  unfold iblk3
  rw [View.read_apply]
  show V c main_v75 _ = V c main_v75 _
  refine congrArg _ ?_
  funext a
  apply Fin.ext
  match a with
  | ⟨0, _⟩ => show win3_2.index t (0 : Fin 2) * 64 + 1 * k.val = k.val; rw [e0] <;> omega
  | ⟨1, _⟩ => show win3_2.index t (1 : Fin 2) * 64 + 1 * j.val = j.val; rw [e1] <;> omega

/-- The second weight half's block is its whole array at every point. -/
theorem blk3_apply (t : Fin cfg3.N) (k j : Fin 64) :
    (iblk3 (F := Ideal) V c 3 t : Vec Ideal S64x64 .f32) (ix2 k j)
      = (V c main_v76 : S64x64.Idx → Elt Ideal .f32) (ix2 k j) := by
  obtain ⟨e0, e1⟩ := idx_whole3 t
  unfold iblk3
  rw [View.read_apply]
  show V c main_v76 _ = V c main_v76 _
  refine congrArg _ ?_
  funext a
  apply Fin.ext
  match a with
  | ⟨0, _⟩ => show win3_3.index t (0 : Fin 2) * 64 + 1 * k.val = k.val; rw [e0] <;> omega
  | ⟨1, _⟩ => show win3_3.index t (1 : Fin 2) * 64 + 1 * j.val = j.val; rw [e1] <;> omega

/-- The one-row window's block is its whole array at every point. -/
theorem blk4_apply (t : Fin cfg3.N) (j : Fin 64) :
    (iblk3 (F := Ideal) V c 4 t : Vec Ideal S1x64 .f32) (ix2 (0 : Fin 1) j)
      = (V c main_v77 : S1x64.Idx → Elt Ideal .f32) (ix2 (0 : Fin 1) j) := by
  obtain ⟨e0, e1⟩ := idx_whole4 t
  unfold iblk3
  rw [View.read_apply]
  show V c main_v77 _ = V c main_v77 _
  refine congrArg _ ?_
  funext a
  apply Fin.ext
  match a with
  | ⟨0, _⟩ => show win3_4.index t (0 : Fin 2) * 1 + 1 * 0 = 0; rw [e0] <;> omega
  | ⟨1, _⟩ => show win3_4.index t (1 : Fin 2) * 64 + 1 * j.val = j.val; rw [e1] <;> omega

/-- The column weight's block is its whole array at every point. -/
theorem blk5_apply (t : Fin cfg3.N) (j : Fin 64) (q : Fin 1) :
    (iblk3 (F := Ideal) V c 5 t : Vec Ideal S64x1 .f32) (ix2 j q)
      = (V c main_arg8 : S64x1.Idx → Elt Ideal .f32) (ix2 j q) := by
  obtain ⟨e0, e1⟩ := idx_whole5 t
  unfold iblk3
  rw [View.read_apply]
  show V c main_arg8 _ = V c main_arg8 _
  refine congrArg _ ?_
  funext a
  apply Fin.ext
  match a with
  | ⟨0, _⟩ => show win3_5.index t (0 : Fin 2) * 64 + 1 * j.val = j.val; rw [e0] <;> omega
  | ⟨1, _⟩ => show win3_5.index t (1 : Fin 2) * 1 + 1 * q.val = q.val; rw [e1] <;> omega

/-- The one-entry bias window's block is its whole array at every point. -/
theorem blk6_apply (t : Fin cfg3.N) (q : Fin 1) :
    (iblk3 (F := Ideal) V c 6 t : Vec Ideal S1x1 .f32) (ix2 (0 : Fin 1) q)
      = (V c main_v78 : S1x1.Idx → Elt Ideal .f32) (ix2 (0 : Fin 1) q) := by
  obtain ⟨e0, e1⟩ := idx_whole6 t
  unfold iblk3
  rw [View.read_apply]
  show V c main_v78 _ = V c main_v78 _
  refine congrArg _ ?_
  funext a
  apply Fin.ext
  match a with
  | ⟨0, _⟩ => show win3_6.index t (0 : Fin 2) * 1 + 1 * 0 = 0; rw [e0] <;> omega
  | ⟨1, _⟩ => show win3_6.index t (1 : Fin 2) * 1 + 1 * q.val = q.val; rw [e1] <;> omega

end Blocks

section Array
variable (V : (c : Dev nD) → (b : Ref sig .tc) → Buf (Elt Ideal) ((c : Thread nD τ).loc b)) (c : Dev nD)
  (wm1 : (⟨S128x64, .f32⟩ : BufTy).Contents (Elt Ideal))
  (h75 : V c main_v75 = extractStridedSlice S64x64 ![0, 0] wm1 slices_S128x64_S64x64_0_0)
  (h76 : V c main_v76 = extractStridedSlice S64x64 ![64, 0] wm1 slices_S128x64_S64x64_64_0)

include h75 h76 in
/-- What grid point t writes back is block t of the whole-array classifier of the region's input arrays. -/
theorem flushed_eq (t : Fin cfg3.N) :
    (dat3 (F := Ideal) V c).flushed 7 t
      = ((cfg3.win 7).blk t).view.read (Elt Ideal)
          (Cert.Bridge.edgeMlp (F := Ideal) (V c main_v67) (V c main_v74) wm1 (V c main_v77) (V c main_arg8) (V c main_v78)) := by
  show (cfg3.win 7).cut (grid3.coords t) ((dat3 V c).after 7 t) = _
  rw [after3_7]
  unfold out3_7
  rw [View.canon_unit_zero zeroOff]
  simp only [View.ld_unit_zero (S := S12800x64) zeroOff, View.ld_unit_zero (S := S64x64) zeroOff,
    View.ld_unit_zero (S := S1x64) zeroOff, View.ld_unit_zero (S := S64x1) zeroOff, View.ld_unit_zero (S := S1x1) zeroOff]
  obtain ⟨e0, e1, ht⟩ := idx_row7 t
  refine funext fun (j : S12800x1.Idx) => ?_
  obtain ⟨p, q, rfl⟩ : ∃ (p : Fin 12800) (q : Fin 1), j = ix2 p q := ⟨j 0, j 1, eq_ix2 j⟩
  refine (point (iblk3 V c 0 t) (iblk3 V c 1 t) (iblk3 V c 2 t) (iblk3 V c 3 t) (iblk3 V c 4 t) (iblk3 V c 5 t) (iblk3 V c 6 t)
    (V c main_v67) (V c main_v74) wm1 (V c main_v77) (V c main_arg8) (V c main_v78)
    p q ⟨t.val * 12800 + p.val, by have := p.isLt; omega⟩
    (fun k => blk0_apply V c t p k _ rfl) (fun k => blk1_apply V c t p k _ rfl)
    (fun k j => (blk2_apply V c t k j).trans (by rw [h75]; exact sliceTop_apply wm1 _ k j))
    (fun k j => (blk3_apply V c t k j).trans (by rw [h76]; exact sliceBot_apply wm1 _ k j))
    (fun j => blk4_apply V c t j) (fun j q => blk5_apply V c t j q) (fun q => blk6_apply V c t q)).trans ?_
  rw [View.read_apply]
  show Cert.Bridge.edgeMlp (F := Ideal) (V c main_v67) (V c main_v74) wm1 (V c main_v77) (V c main_arg8) (V c main_v78) _
    = Cert.Bridge.edgeMlp (F := Ideal) (V c main_v67) (V c main_v74) wm1 (V c main_v77) (V c main_arg8) (V c main_v78) _
  refine congrArg _ ?_
  funext a
  apply Fin.ext
  match a with
  | ⟨0, _⟩ => show t.val * 12800 + p.val = win3_7.index t (0 : Fin 2) * 12800 + 1 * p.val; rw [e0]; omega
  | ⟨1, _⟩ => show q.val = win3_7.index t (1 : Fin 2) * 1 + 1 * q.val; rw [e1]; omega

/-- An index of the output array is in point t's block iff each coordinate is in the block's range on its axis. -/
theorem mem_blk (t : Fin cfg3.N) (i : S1600000x1.Idx) :
    i ∈ ((cfg3.win 7).blk t).view.set ↔ ∀ a : Fin 2, win3_7.index t a * S12800x1.size a ≤ (i a).val
      ∧ (i a).val < win3_7.index t a * S12800x1.size a + S12800x1.size a := by
  show i ∈ ((View.whole main_v79).slice (win3_7.rect t)).set ↔ _
  rw [View.set_slice_whole, Rect.mem_set_unit]
  exact Iff.rfl

/-- Row r of the output array lies in the block of point r / 12800. -/
theorem cover (i : ((cfg3.win 7).arr.view.loc (c.tc : Thread nD τ)).2.ty.Idx) :
    ∃ t : Fin cfg3.N, (cfg3.win 7).flush t = true ∧ i ∈ ((cfg3.win 7).blk t).view.set := by
  have hi0 : (i 0).val < 1600000 := (i 0).isLt
  have hi1 : (i 1).val < 1 := (i 1).isLt
  obtain ⟨t, ht⟩ : ∃ t : Fin cfg3.N, t.val = (i 0).val / 12800 :=
    ⟨⟨(i 0).val / 12800, by show (i 0).val / 12800 < 125; omega⟩, rfl⟩
  obtain ⟨e0, e1, -⟩ := idx_row7 t
  refine ⟨t, flush3_7 t, ?_⟩
  rw [mem_blk]
  intro a
  match a with
  | ⟨0, _⟩ =>
    show win3_7.index t (0 : Fin 2) * 12800 ≤ (i 0).val ∧ (i 0).val < win3_7.index t (0 : Fin 2) * 12800 + 12800
    rw [e0, ht]; omega
  | ⟨1, _⟩ =>
    show win3_7.index t (1 : Fin 2) * 1 ≤ (i 1).val ∧ (i 1).val < win3_7.index t (1 : Fin 2) * 1 + 1
    rw [e1]; omega

end Array

/-- The output array after all grid points have written back is the edge classifier of the region's inputs: the two
    gathered feature arrays joined along the feature axis and multiplied by the whole 128×64 weight, of which the
    region's two 64×64 weights are the row halves. -/
theorem value (V : (c : Dev nD) → (b : Ref sig .tc) → Buf (Elt Ideal) ((c : Thread nD τ).loc b)) (c : Dev nD)
    (wm1 : (⟨S128x64, .f32⟩ : BufTy).Contents (Elt Ideal))
    (h75 : V c main_v75 = extractStridedSlice S64x64 ![0, 0] wm1 slices_S128x64_S64x64_0_0)
    (h76 : V c main_v76 = extractStridedSlice S64x64 ![64, 0] wm1 slices_S128x64_S64x64_64_0) :
    (dat3 (F := Ideal) V c).arrAt 7 cfg3.N
      = Cert.Bridge.edgeMlp (F := Ideal) (V c main_v67) (V c main_v74) wm1 (V c main_v77) (V c main_arg8) (V c main_v78) :=
  (dat3 (F := Ideal) V c).arrAt_eq_of_cover 7
    (Cert.Bridge.edgeMlp (F := Ideal) (V c main_v67) (V c main_v74) wm1 (V c main_v77) (V c main_arg8) (V c main_v78))
    (fun t _ => flushed_eq V c wm1 h75 h76 t) (cover c)

end Cert.Bridge.Region3

end
-- ==== Proof.Fold.lean ====
/-
  What the idealized kernel program's buffers hold at each boundary between a host stretch and a pipeline, as the
  reference program's own stage functions of the ten arguments.  The host operations of the two programs are the same
  operations on the same operands; the four pipelines compute the reference's dense stages (Region0 … Region3); so by
  induction along @main each boundary's live buffers are the reference's stages, and the two results are the
  reference's results.  A bias vector reaches a pipeline as a [1, n] row made by a reshape where the reference makes
  the same row by a broadcast: the two rows are equal entry by entry.
-/
import proofs.«165775_j61100204753674_1_alg».proof.Proof.Gen.KernelIdeal.Frame
import proofs.«165775_j61100204753674_1_alg».proof.Proof.ReadP
import proofs.«165775_j61100204753674_1_alg».proof.Proof.Spec
import proofs.«165775_j61100204753674_1_alg».proof.Proof.Region0
import proofs.«165775_j61100204753674_1_alg».proof.Proof.Region1
import proofs.«165775_j61100204753674_1_alg».proof.Proof.Region2
import proofs.«165775_j61100204753674_1_alg».proof.Proof.Region3
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.Bridge.Fold

open Idealize.ShloMosaic Idealize.ShloMosaic.TcCoe Idealize.SL.Sem Idealize.ShloMosaic.StableHlo Idealize.ShloMosaic.ValueIdx
open Cert.KernelIdeal Cert.KernelIdeal.Gen

/-- A vector reshaped to a one-row matrix is the vector broadcast along the new leading axis: entry (0, i) of
    either is entry i of the vector. -/
theorem rowCast64 (x : (⟨S64, .f32⟩ : BufTy).Contents (Elt Ideal)) :
    shapeCast S1x64 x shapeCasts_S64_S1x64
      = broadcastInDim Cert.ReferenceIdeal.S1x64 ![1] Cert.ReferenceIdeal.Gen.bcast_S64_S1x64_1 x := by
  funext j
  obtain ⟨u, i, rfl⟩ : ∃ (u : Fin 1) (i : Fin 64), j = ix2 u i := ⟨j 0, j 1, eq_ix2 j⟩
  refine (shapeCast_a_1a_apply (a := 64) x shapeCasts_S64_S1x64 u i).trans ?_
  refine (broadcastInDim_apply (s := Cert.ReferenceIdeal.S64) (t := Cert.ReferenceIdeal.S1x64) ![1]
    Cert.ReferenceIdeal.Gen.bcast_S64_S1x64_1 x (ix2 u i) (ix1 i) ?_).symm
  intro a; match a with | ⟨0, _⟩ => rfl

/-- The one-entry vector reshaped to a 1×1 matrix is its broadcast: both hold the one entry. -/
theorem rowCast1 (x : (⟨S1, .f32⟩ : BufTy).Contents (Elt Ideal)) :
    shapeCast S1x1 x shapeCasts_S1_S1x1
      = broadcastInDim Cert.ReferenceIdeal.S1x1 ![1] Cert.ReferenceIdeal.Gen.bcast_S1_S1x1_1 x := by
  funext j
  obtain ⟨u, i, rfl⟩ : ∃ (u : Fin 1) (i : Fin 1), j = ix2 u i := ⟨j 0, j 1, eq_ix2 j⟩
  refine (shapeCast_a_1a_apply (a := 1) x shapeCasts_S1_S1x1 u i).trans ?_
  refine (broadcastInDim_apply (s := Cert.ReferenceIdeal.S1) (t := Cert.ReferenceIdeal.S1x1) ![1]
    Cert.ReferenceIdeal.Gen.bcast_S1_S1x1_1 x (ix2 u i) (ix1 i) ?_).symm
  intro a; match a with | ⟨0, _⟩ => (show i.val = if (1 : Nat) = 1 then 0 else i.val; rw [if_pos rfl]; omega)

section Entry

-- these hold at every float instance: the first host stretches only move and compare entries
variable {F : FTy → Type} [FloatOps F]
variable (m : (ℓ : Loc nD τ sig) → Buf (Elt F) ℓ) (ρ : Dev nD → PrngReg) (c : Dev nD)

/-! ## At the first pipeline's entry: the index vectors, the normalisation column and the arguments -/

theorem A_main_v1 : W3 m ρ c (Proc.devRef .tc main_v1) = (Cert.ReferenceIdeal.ReadP.val_main_v1 (F := F) (m ((c.tc : Thread nD τ).loc main_arg1))) := by
  show StableHlo.after hostOps0_2 (StableHlo.after hostOps0_1 (StableHlo.after hostOps0 (W0 m ρ c))) (Proc.devRef .tc main_v1) = _
  dsimp only [hostOps0, hostOps0_1, hostOps0_2]
  after_results_simp <;> rfl

theorem A_main_v3 : W3 m ρ c (Proc.devRef .tc main_v3) = (Cert.ReferenceIdeal.ReadP.val_main_v3 (F := F) (m ((c.tc : Thread nD τ).loc main_arg1))) := by
  show StableHlo.after hostOps0_2 (StableHlo.after hostOps0_1 (StableHlo.after hostOps0 (W0 m ρ c))) (Proc.devRef .tc main_v3) = _
  dsimp only [hostOps0, hostOps0_1, hostOps0_2]
  after_results_simp <;> rfl

theorem A_main_v5 : W3 m ρ c (Proc.devRef .tc main_v5) = (Cert.ReferenceIdeal.ReadP.val_main_v5 (F := F) (m ((c.tc : Thread nD τ).loc main_arg1))) := by
  show StableHlo.after hostOps0_2 (StableHlo.after hostOps0_1 (StableHlo.after hostOps0 (W0 m ρ c))) (Proc.devRef .tc main_v5) = _
  dsimp only [hostOps0, hostOps0_1, hostOps0_2]
  after_results_simp <;> rfl

theorem A_main_v6 : W3 m ρ c (Proc.devRef .tc main_v6) = (Cert.ReferenceIdeal.ReadP.val_main_v6 (F := F) (m ((c.tc : Thread nD τ).loc main_arg1))) := by
  show StableHlo.after hostOps0_2 (StableHlo.after hostOps0_1 (StableHlo.after hostOps0 (W0 m ρ c))) (Proc.devRef .tc main_v6) = _
  dsimp only [hostOps0, hostOps0_1, hostOps0_2]
  after_results_simp <;> rfl

theorem A_main_v31 : W3 m ρ c (Proc.devRef .tc main_v31) = (Cert.ReferenceIdeal.ReadP.val_main_v31 (F := F) (m ((c.tc : Thread nD τ).loc main_arg1))) := by
  show StableHlo.after hostOps0_2 (StableHlo.after hostOps0_1 (StableHlo.after hostOps0 (W0 m ρ c))) (Proc.devRef .tc main_v31) = _
  dsimp only [hostOps0, hostOps0_1, hostOps0_2]
  after_results_simp <;> rfl

theorem A_main_arg0 : W3 m ρ c (Proc.devRef .tc main_arg0) = (m ((c.tc : Thread nD τ).loc main_arg0)) := by
  show StableHlo.after hostOps0_2 (StableHlo.after hostOps0_1 (StableHlo.after hostOps0 (W0 m ρ c))) (Proc.devRef .tc main_arg0) = _
  dsimp only [hostOps0, hostOps0_1, hostOps0_2]
  after_results_simp <;> rfl

theorem A_main_arg2 : W3 m ρ c (Proc.devRef .tc main_arg2) = (m ((c.tc : Thread nD τ).loc main_arg2)) := by
  show StableHlo.after hostOps0_2 (StableHlo.after hostOps0_1 (StableHlo.after hostOps0 (W0 m ρ c))) (Proc.devRef .tc main_arg2) = _
  dsimp only [hostOps0, hostOps0_1, hostOps0_2]
  after_results_simp <;> rfl

theorem A_main_arg3 : W3 m ρ c (Proc.devRef .tc main_arg3) = (m ((c.tc : Thread nD τ).loc main_arg3)) := by
  show StableHlo.after hostOps0_2 (StableHlo.after hostOps0_1 (StableHlo.after hostOps0 (W0 m ρ c))) (Proc.devRef .tc main_arg3) = _
  dsimp only [hostOps0, hostOps0_1, hostOps0_2]
  after_results_simp <;> rfl

theorem A_main_arg4 : W3 m ρ c (Proc.devRef .tc main_arg4) = (m ((c.tc : Thread nD τ).loc main_arg4)) := by
  show StableHlo.after hostOps0_2 (StableHlo.after hostOps0_1 (StableHlo.after hostOps0 (W0 m ρ c))) (Proc.devRef .tc main_arg4) = _
  dsimp only [hostOps0, hostOps0_1, hostOps0_2]
  after_results_simp <;> rfl

theorem A_main_arg5 : W3 m ρ c (Proc.devRef .tc main_arg5) = (m ((c.tc : Thread nD τ).loc main_arg5)) := by
  show StableHlo.after hostOps0_2 (StableHlo.after hostOps0_1 (StableHlo.after hostOps0 (W0 m ρ c))) (Proc.devRef .tc main_arg5) = _
  dsimp only [hostOps0, hostOps0_1, hostOps0_2]
  after_results_simp <;> rfl

theorem A_main_arg6 : W3 m ρ c (Proc.devRef .tc main_arg6) = (m ((c.tc : Thread nD τ).loc main_arg6)) := by
  show StableHlo.after hostOps0_2 (StableHlo.after hostOps0_1 (StableHlo.after hostOps0 (W0 m ρ c))) (Proc.devRef .tc main_arg6) = _
  dsimp only [hostOps0, hostOps0_1, hostOps0_2]
  after_results_simp <;> rfl

theorem A_main_arg7 : W3 m ρ c (Proc.devRef .tc main_arg7) = (m ((c.tc : Thread nD τ).loc main_arg7)) := by
  show StableHlo.after hostOps0_2 (StableHlo.after hostOps0_1 (StableHlo.after hostOps0 (W0 m ρ c))) (Proc.devRef .tc main_arg7) = _
  dsimp only [hostOps0, hostOps0_1, hostOps0_2]
  after_results_simp <;> rfl

theorem A_main_arg8 : W3 m ρ c (Proc.devRef .tc main_arg8) = (m ((c.tc : Thread nD τ).loc main_arg8)) := by
  show StableHlo.after hostOps0_2 (StableHlo.after hostOps0_1 (StableHlo.after hostOps0 (W0 m ρ c))) (Proc.devRef .tc main_arg8) = _
  dsimp only [hostOps0, hostOps0_1, hostOps0_2]
  after_results_simp <;> rfl

theorem A_main_arg9 : W3 m ρ c (Proc.devRef .tc main_arg9) = (m ((c.tc : Thread nD τ).loc main_arg9)) := by
  show StableHlo.after hostOps0_2 (StableHlo.after hostOps0_1 (StableHlo.after hostOps0 (W0 m ρ c))) (Proc.devRef .tc main_arg9) = _
  dsimp only [hostOps0, hostOps0_1, hostOps0_2]
  after_results_simp <;> rfl

end Entry

variable (m : (ℓ : Loc nD τ sig) → Buf (Elt Ideal) ℓ) (ρ : Dev nD → PrngReg) (c : Dev nD)

/-! ## After the first pipeline: x · W1 -/

theorem B_main_v32 : W4 m ρ c (Proc.devRef .tc main_v32) = (Cert.ReferenceIdeal.ReadP.val_main_v32 (F := Ideal) (m ((c.tc : Thread nD τ).loc main_arg0)) (m ((c.tc : Thread nD τ).loc main_arg2))) := by
  refine (W4_arr m ρ c 2).trans ?_
  refine (Cert.Bridge.Region0.value (V3 m ρ) c).trans ?_
  show Cert.Bridge.dense1 (F := Ideal) (W3 m ρ c (Proc.devRef .tc main_arg0)) (W3 m ρ c (Proc.devRef .tc main_arg2)) = _
  rw [A_main_arg0 m ρ c, A_main_arg2 m ρ c]
  rfl

theorem B_main_v1 : W4 m ρ c (Proc.devRef .tc main_v1) = (Cert.ReferenceIdeal.ReadP.val_main_v1 (F := Ideal) (m ((c.tc : Thread nD τ).loc main_arg1))) :=
  (W4_of_ne m ρ c main_v1 (by decide)).trans (A_main_v1 m ρ c)

theorem B_main_v3 : W4 m ρ c (Proc.devRef .tc main_v3) = (Cert.ReferenceIdeal.ReadP.val_main_v3 (F := Ideal) (m ((c.tc : Thread nD τ).loc main_arg1))) :=
  (W4_of_ne m ρ c main_v3 (by decide)).trans (A_main_v3 m ρ c)

theorem B_main_v5 : W4 m ρ c (Proc.devRef .tc main_v5) = (Cert.ReferenceIdeal.ReadP.val_main_v5 (F := Ideal) (m ((c.tc : Thread nD τ).loc main_arg1))) :=
  (W4_of_ne m ρ c main_v5 (by decide)).trans (A_main_v5 m ρ c)

theorem B_main_v6 : W4 m ρ c (Proc.devRef .tc main_v6) = (Cert.ReferenceIdeal.ReadP.val_main_v6 (F := Ideal) (m ((c.tc : Thread nD τ).loc main_arg1))) :=
  (W4_of_ne m ρ c main_v6 (by decide)).trans (A_main_v6 m ρ c)

theorem B_main_v31 : W4 m ρ c (Proc.devRef .tc main_v31) = (Cert.ReferenceIdeal.ReadP.val_main_v31 (F := Ideal) (m ((c.tc : Thread nD τ).loc main_arg1))) :=
  (W4_of_ne m ρ c main_v31 (by decide)).trans (A_main_v31 m ρ c)

theorem B_main_arg3 : W4 m ρ c (Proc.devRef .tc main_arg3) = (m ((c.tc : Thread nD τ).loc main_arg3)) :=
  (W4_of_ne m ρ c main_arg3 (by decide)).trans (A_main_arg3 m ρ c)

theorem B_main_arg4 : W4 m ρ c (Proc.devRef .tc main_arg4) = (m ((c.tc : Thread nD τ).loc main_arg4)) :=
  (W4_of_ne m ρ c main_arg4 (by decide)).trans (A_main_arg4 m ρ c)

theorem B_main_arg5 : W4 m ρ c (Proc.devRef .tc main_arg5) = (m ((c.tc : Thread nD τ).loc main_arg5)) :=
  (W4_of_ne m ρ c main_arg5 (by decide)).trans (A_main_arg5 m ρ c)

theorem B_main_arg6 : W4 m ρ c (Proc.devRef .tc main_arg6) = (m ((c.tc : Thread nD τ).loc main_arg6)) :=
  (W4_of_ne m ρ c main_arg6 (by decide)).trans (A_main_arg6 m ρ c)

theorem B_main_arg7 : W4 m ρ c (Proc.devRef .tc main_arg7) = (m ((c.tc : Thread nD τ).loc main_arg7)) :=
  (W4_of_ne m ρ c main_arg7 (by decide)).trans (A_main_arg7 m ρ c)

theorem B_main_arg8 : W4 m ρ c (Proc.devRef .tc main_arg8) = (m ((c.tc : Thread nD τ).loc main_arg8)) :=
  (W4_of_ne m ρ c main_arg8 (by decide)).trans (A_main_arg8 m ρ c)

theorem B_main_arg9 : W4 m ρ c (Proc.devRef .tc main_arg9) = (m ((c.tc : Thread nD τ).loc main_arg9)) :=
  (W4_of_ne m ρ c main_arg9 (by decide)).trans (A_main_arg9 m ρ c)

/-! ## The first aggregation, the bias row and the second weight -/

theorem C_main_v44 : W5 m ρ c (Proc.devRef .tc main_v44) = (Cert.ReferenceIdeal.ReadP.val_main_v44 (F := Ideal) (m ((c.tc : Thread nD τ).loc main_arg0)) (m ((c.tc : Thread nD τ).loc main_arg1)) (m ((c.tc : Thread nD τ).loc main_arg2))) := by
  show StableHlo.after hostOps1 (W4 m ρ c) (Proc.devRef .tc main_v44) = _
  dsimp only [hostOps1]
  after_results_simp
  rw [B_main_v32 m ρ c, B_main_v5 m ρ c, B_main_v6 m ρ c, B_main_v31 m ρ c]
  rfl

theorem C_main_v45 : W5 m ρ c (Proc.devRef .tc main_v45) = (shapeCast S1x64 (m ((c.tc : Thread nD τ).loc main_arg3)) shapeCasts_S64_S1x64) := by
  show StableHlo.after hostOps1 (W4 m ρ c) (Proc.devRef .tc main_v45) = _
  dsimp only [hostOps1]
  after_results_simp
  rw [B_main_arg3 m ρ c]
  rfl

theorem C_main_arg4 : W5 m ρ c (Proc.devRef .tc main_arg4) = (m ((c.tc : Thread nD τ).loc main_arg4)) := by
  show StableHlo.after hostOps1 (W4 m ρ c) (Proc.devRef .tc main_arg4) = _
  dsimp only [hostOps1]
  after_results_simp
  exact B_main_arg4 m ρ c

theorem C_main_v1 : W5 m ρ c (Proc.devRef .tc main_v1) = (Cert.ReferenceIdeal.ReadP.val_main_v1 (F := Ideal) (m ((c.tc : Thread nD τ).loc main_arg1))) := by
  show StableHlo.after hostOps1 (W4 m ρ c) (Proc.devRef .tc main_v1) = _
  dsimp only [hostOps1]
  after_results_simp
  exact B_main_v1 m ρ c

theorem C_main_v3 : W5 m ρ c (Proc.devRef .tc main_v3) = (Cert.ReferenceIdeal.ReadP.val_main_v3 (F := Ideal) (m ((c.tc : Thread nD τ).loc main_arg1))) := by
  show StableHlo.after hostOps1 (W4 m ρ c) (Proc.devRef .tc main_v3) = _
  dsimp only [hostOps1]
  after_results_simp
  exact B_main_v3 m ρ c

theorem C_main_v5 : W5 m ρ c (Proc.devRef .tc main_v5) = (Cert.ReferenceIdeal.ReadP.val_main_v5 (F := Ideal) (m ((c.tc : Thread nD τ).loc main_arg1))) := by
  show StableHlo.after hostOps1 (W4 m ρ c) (Proc.devRef .tc main_v5) = _
  dsimp only [hostOps1]
  after_results_simp
  exact B_main_v5 m ρ c

theorem C_main_v6 : W5 m ρ c (Proc.devRef .tc main_v6) = (Cert.ReferenceIdeal.ReadP.val_main_v6 (F := Ideal) (m ((c.tc : Thread nD τ).loc main_arg1))) := by
  show StableHlo.after hostOps1 (W4 m ρ c) (Proc.devRef .tc main_v6) = _
  dsimp only [hostOps1]
  after_results_simp
  exact B_main_v6 m ρ c

theorem C_main_v31 : W5 m ρ c (Proc.devRef .tc main_v31) = (Cert.ReferenceIdeal.ReadP.val_main_v31 (F := Ideal) (m ((c.tc : Thread nD τ).loc main_arg1))) := by
  show StableHlo.after hostOps1 (W4 m ρ c) (Proc.devRef .tc main_v31) = _
  dsimp only [hostOps1]
  after_results_simp
  exact B_main_v31 m ρ c

theorem C_main_arg5 : W5 m ρ c (Proc.devRef .tc main_arg5) = (m ((c.tc : Thread nD τ).loc main_arg5)) := by
  show StableHlo.after hostOps1 (W4 m ρ c) (Proc.devRef .tc main_arg5) = _
  dsimp only [hostOps1]
  after_results_simp
  exact B_main_arg5 m ρ c

theorem C_main_arg6 : W5 m ρ c (Proc.devRef .tc main_arg6) = (m ((c.tc : Thread nD τ).loc main_arg6)) := by
  show StableHlo.after hostOps1 (W4 m ρ c) (Proc.devRef .tc main_arg6) = _
  dsimp only [hostOps1]
  after_results_simp
  exact B_main_arg6 m ρ c

theorem C_main_arg7 : W5 m ρ c (Proc.devRef .tc main_arg7) = (m ((c.tc : Thread nD τ).loc main_arg7)) := by
  show StableHlo.after hostOps1 (W4 m ρ c) (Proc.devRef .tc main_arg7) = _
  dsimp only [hostOps1]
  after_results_simp
  exact B_main_arg7 m ρ c

theorem C_main_arg8 : W5 m ρ c (Proc.devRef .tc main_arg8) = (m ((c.tc : Thread nD τ).loc main_arg8)) := by
  show StableHlo.after hostOps1 (W4 m ρ c) (Proc.devRef .tc main_arg8) = _
  dsimp only [hostOps1]
  after_results_simp
  exact B_main_arg8 m ρ c

theorem C_main_arg9 : W5 m ρ c (Proc.devRef .tc main_arg9) = (m ((c.tc : Thread nD τ).loc main_arg9)) := by
  show StableHlo.after hostOps1 (W4 m ρ c) (Proc.devRef .tc main_arg9) = _
  dsimp only [hostOps1]
  after_results_simp
  exact B_main_arg9 m ρ c

/-! ## After the second pipeline: max (agg₁ + b₁, 0) · W2 -/

theorem D_main_v46 : W6 m ρ c (Proc.devRef .tc main_v46) = (Cert.ReferenceIdeal.ReadP.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  refine (W6_arr m ρ c 3).trans ?_
  refine (Cert.Bridge.Region1.value (V5 m ρ) c).trans ?_
  show Cert.Bridge.dense2 (F := Ideal) (W5 m ρ c (Proc.devRef .tc main_v44)) (W5 m ρ c (Proc.devRef .tc main_v45)) (W5 m ρ c (Proc.devRef .tc main_arg4)) = _
  rw [C_main_v44 m ρ c, C_main_v45 m ρ c, C_main_arg4 m ρ c, rowCast64]
  rfl

theorem D_main_v1 : W6 m ρ c (Proc.devRef .tc main_v1) = (Cert.ReferenceIdeal.ReadP.val_main_v1 (F := Ideal) (m ((c.tc : Thread nD τ).loc main_arg1))) :=
  (W6_of_ne m ρ c main_v1 (by decide)).trans (C_main_v1 m ρ c)

theorem D_main_v3 : W6 m ρ c (Proc.devRef .tc main_v3) = (Cert.ReferenceIdeal.ReadP.val_main_v3 (F := Ideal) (m ((c.tc : Thread nD τ).loc main_arg1))) :=
  (W6_of_ne m ρ c main_v3 (by decide)).trans (C_main_v3 m ρ c)

theorem D_main_v5 : W6 m ρ c (Proc.devRef .tc main_v5) = (Cert.ReferenceIdeal.ReadP.val_main_v5 (F := Ideal) (m ((c.tc : Thread nD τ).loc main_arg1))) :=
  (W6_of_ne m ρ c main_v5 (by decide)).trans (C_main_v5 m ρ c)

theorem D_main_v6 : W6 m ρ c (Proc.devRef .tc main_v6) = (Cert.ReferenceIdeal.ReadP.val_main_v6 (F := Ideal) (m ((c.tc : Thread nD τ).loc main_arg1))) :=
  (W6_of_ne m ρ c main_v6 (by decide)).trans (C_main_v6 m ρ c)

theorem D_main_v31 : W6 m ρ c (Proc.devRef .tc main_v31) = (Cert.ReferenceIdeal.ReadP.val_main_v31 (F := Ideal) (m ((c.tc : Thread nD τ).loc main_arg1))) :=
  (W6_of_ne m ρ c main_v31 (by decide)).trans (C_main_v31 m ρ c)

theorem D_main_arg5 : W6 m ρ c (Proc.devRef .tc main_arg5) = (m ((c.tc : Thread nD τ).loc main_arg5)) :=
  (W6_of_ne m ρ c main_arg5 (by decide)).trans (C_main_arg5 m ρ c)

theorem D_main_arg6 : W6 m ρ c (Proc.devRef .tc main_arg6) = (m ((c.tc : Thread nD τ).loc main_arg6)) :=
  (W6_of_ne m ρ c main_arg6 (by decide)).trans (C_main_arg6 m ρ c)

theorem D_main_arg7 : W6 m ρ c (Proc.devRef .tc main_arg7) = (m ((c.tc : Thread nD τ).loc main_arg7)) :=
  (W6_of_ne m ρ c main_arg7 (by decide)).trans (C_main_arg7 m ρ c)

theorem D_main_arg8 : W6 m ρ c (Proc.devRef .tc main_arg8) = (m ((c.tc : Thread nD τ).loc main_arg8)) :=
  (W6_of_ne m ρ c main_arg8 (by decide)).trans (C_main_arg8 m ρ c)

theorem D_main_arg9 : W6 m ρ c (Proc.devRef .tc main_arg9) = (m ((c.tc : Thread nD τ).loc main_arg9)) :=
  (W6_of_ne m ρ c main_arg9 (by decide)).trans (C_main_arg9 m ρ c)

/-! ## The second aggregation and its bias row -/

theorem E_main_v58 : W7 m ρ c (Proc.devRef .tc main_v58) = (Cert.ReferenceIdeal.ReadP.val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  show StableHlo.after hostOps2 (W6 m ρ c) (Proc.devRef .tc main_v58) = _
  dsimp only [hostOps2]
  after_results_simp
  rw [D_main_v46 m ρ c, D_main_v5 m ρ c, D_main_v6 m ρ c, D_main_v31 m ρ c]
  rfl

theorem E_main_v59 : W7 m ρ c (Proc.devRef .tc main_v59) = (shapeCast S1x64 (m ((c.tc : Thread nD τ).loc main_arg5)) shapeCasts_S64_S1x64) := by
  show StableHlo.after hostOps2 (W6 m ρ c) (Proc.devRef .tc main_v59) = _
  dsimp only [hostOps2]
  after_results_simp
  rw [D_main_arg5 m ρ c]
  rfl

theorem E_main_v1 : W7 m ρ c (Proc.devRef .tc main_v1) = (Cert.ReferenceIdeal.ReadP.val_main_v1 (F := Ideal) (m ((c.tc : Thread nD τ).loc main_arg1))) := by
  show StableHlo.after hostOps2 (W6 m ρ c) (Proc.devRef .tc main_v1) = _
  dsimp only [hostOps2]
  after_results_simp
  exact D_main_v1 m ρ c

theorem E_main_v3 : W7 m ρ c (Proc.devRef .tc main_v3) = (Cert.ReferenceIdeal.ReadP.val_main_v3 (F := Ideal) (m ((c.tc : Thread nD τ).loc main_arg1))) := by
  show StableHlo.after hostOps2 (W6 m ρ c) (Proc.devRef .tc main_v3) = _
  dsimp only [hostOps2]
  after_results_simp
  exact D_main_v3 m ρ c

theorem E_main_arg6 : W7 m ρ c (Proc.devRef .tc main_arg6) = (m ((c.tc : Thread nD τ).loc main_arg6)) := by
  show StableHlo.after hostOps2 (W6 m ρ c) (Proc.devRef .tc main_arg6) = _
  dsimp only [hostOps2]
  after_results_simp
  exact D_main_arg6 m ρ c

theorem E_main_arg7 : W7 m ρ c (Proc.devRef .tc main_arg7) = (m ((c.tc : Thread nD τ).loc main_arg7)) := by
  show StableHlo.after hostOps2 (W6 m ρ c) (Proc.devRef .tc main_arg7) = _
  dsimp only [hostOps2]
  after_results_simp
  exact D_main_arg7 m ρ c

theorem E_main_arg8 : W7 m ρ c (Proc.devRef .tc main_arg8) = (m ((c.tc : Thread nD τ).loc main_arg8)) := by
  show StableHlo.after hostOps2 (W6 m ρ c) (Proc.devRef .tc main_arg8) = _
  dsimp only [hostOps2]
  after_results_simp
  exact D_main_arg8 m ρ c

theorem E_main_arg9 : W7 m ρ c (Proc.devRef .tc main_arg9) = (m ((c.tc : Thread nD τ).loc main_arg9)) := by
  show StableHlo.after hostOps2 (W6 m ρ c) (Proc.devRef .tc main_arg9) = _
  dsimp only [hostOps2]
  after_results_simp
  exact D_main_arg9 m ρ c

/-! ## After the third pipeline: the node embedding h = max (agg₂ + b₂, 0) -/

theorem F_main_v60 : W8 m ρ c (Proc.devRef .tc main_v60) = (Cert.ReferenceIdeal.ReadP.val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  refine (W8_arr m ρ c 2).trans ?_
  refine (Cert.Bridge.Region2.value (V7 m ρ) c).trans ?_
  show Cert.Bridge.biasRelu (F := Ideal) (W7 m ρ c (Proc.devRef .tc main_v58)) (W7 m ρ c (Proc.devRef .tc main_v59)) = _
  rw [E_main_v58 m ρ c, E_main_v59 m ρ c, rowCast64]
  rfl

theorem F_main_v1 : W8 m ρ c (Proc.devRef .tc main_v1) = (Cert.ReferenceIdeal.ReadP.val_main_v1 (F := Ideal) (m ((c.tc : Thread nD τ).loc main_arg1))) :=
  (W8_of_ne m ρ c main_v1 (by decide)).trans (E_main_v1 m ρ c)

theorem F_main_v3 : W8 m ρ c (Proc.devRef .tc main_v3) = (Cert.ReferenceIdeal.ReadP.val_main_v3 (F := Ideal) (m ((c.tc : Thread nD τ).loc main_arg1))) :=
  (W8_of_ne m ρ c main_v3 (by decide)).trans (E_main_v3 m ρ c)

theorem F_main_arg6 : W8 m ρ c (Proc.devRef .tc main_arg6) = (m ((c.tc : Thread nD τ).loc main_arg6)) :=
  (W8_of_ne m ρ c main_arg6 (by decide)).trans (E_main_arg6 m ρ c)

theorem F_main_arg7 : W8 m ρ c (Proc.devRef .tc main_arg7) = (m ((c.tc : Thread nD τ).loc main_arg7)) :=
  (W8_of_ne m ρ c main_arg7 (by decide)).trans (E_main_arg7 m ρ c)

theorem F_main_arg8 : W8 m ρ c (Proc.devRef .tc main_arg8) = (m ((c.tc : Thread nD τ).loc main_arg8)) :=
  (W8_of_ne m ρ c main_arg8 (by decide)).trans (E_main_arg8 m ρ c)

theorem F_main_arg9 : W8 m ρ c (Proc.devRef .tc main_arg9) = (m ((c.tc : Thread nD τ).loc main_arg9)) :=
  (W8_of_ne m ρ c main_arg9 (by decide)).trans (E_main_arg9 m ρ c)

/-! ## The gathered edge features, the two halves of the 128×64 weight and the bias rows -/

theorem G_main_v67 : W9 m ρ c (Proc.devRef .tc main_v67) = (Cert.ReferenceIdeal.ReadP.val_main_v72 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  show StableHlo.after hostOps3 (W8 m ρ c) (Proc.devRef .tc main_v67) = _
  dsimp only [hostOps3]
  after_results_simp
  rw [F_main_v60 m ρ c, F_main_v1 m ρ c]
  rfl

theorem G_main_v74 : W9 m ρ c (Proc.devRef .tc main_v74) = (Cert.ReferenceIdeal.ReadP.val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  show StableHlo.after hostOps3 (W8 m ρ c) (Proc.devRef .tc main_v74) = _
  dsimp only [hostOps3]
  after_results_simp
  rw [F_main_v60 m ρ c, F_main_v3 m ρ c]
  rfl

theorem G_main_v75 : W9 m ρ c (Proc.devRef .tc main_v75) = (extractStridedSlice S64x64 ![0, 0] (m ((c.tc : Thread nD τ).loc main_arg6)) slices_S128x64_S64x64_0_0) := by
  show StableHlo.after hostOps3 (W8 m ρ c) (Proc.devRef .tc main_v75) = _
  dsimp only [hostOps3]
  after_results_simp
  rw [F_main_arg6 m ρ c]

theorem G_main_v76 : W9 m ρ c (Proc.devRef .tc main_v76) = (extractStridedSlice S64x64 ![64, 0] (m ((c.tc : Thread nD τ).loc main_arg6)) slices_S128x64_S64x64_64_0) := by
  show StableHlo.after hostOps3 (W8 m ρ c) (Proc.devRef .tc main_v76) = _
  dsimp only [hostOps3]
  after_results_simp
  rw [F_main_arg6 m ρ c]

theorem G_main_v77 : W9 m ρ c (Proc.devRef .tc main_v77) = (shapeCast S1x64 (m ((c.tc : Thread nD τ).loc main_arg7)) shapeCasts_S64_S1x64) := by
  show StableHlo.after hostOps3 (W8 m ρ c) (Proc.devRef .tc main_v77) = _
  dsimp only [hostOps3]
  after_results_simp
  rw [F_main_arg7 m ρ c]
  rfl

theorem G_main_v78 : W9 m ρ c (Proc.devRef .tc main_v78) = (shapeCast S1x1 (m ((c.tc : Thread nD τ).loc main_arg9)) shapeCasts_S1_S1x1) := by
  show StableHlo.after hostOps3 (W8 m ρ c) (Proc.devRef .tc main_v78) = _
  dsimp only [hostOps3]
  after_results_simp
  rw [F_main_arg9 m ρ c]
  rfl

theorem G_main_arg8 : W9 m ρ c (Proc.devRef .tc main_arg8) = (m ((c.tc : Thread nD τ).loc main_arg8)) := by
  show StableHlo.after hostOps3 (W8 m ρ c) (Proc.devRef .tc main_arg8) = _
  dsimp only [hostOps3]
  after_results_simp
  exact F_main_arg8 m ρ c

theorem G_main_v60 : W9 m ρ c (Proc.devRef .tc main_v60) = (Cert.ReferenceIdeal.ReadP.val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  show StableHlo.after hostOps3 (W8 m ρ c) (Proc.devRef .tc main_v60) = _
  dsimp only [hostOps3]
  after_results_simp
  exact F_main_v60 m ρ c

/-! ## After the fourth pipeline: the edge probabilities as a column -/

theorem H_main_v79 : W10 m ρ c (Proc.devRef .tc main_v79) = (Cert.ReferenceIdeal.ReadP.val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) := by
  refine (W10_arr m ρ c 7).trans ?_
  refine (Cert.Bridge.Region3.value (V9 m ρ) c (m ((c.tc : Thread nD τ).loc main_arg6)) (G_main_v75 m ρ c) (G_main_v76 m ρ c)).trans ?_
  show Cert.Bridge.edgeMlp (F := Ideal) (W9 m ρ c (Proc.devRef .tc main_v67)) (W9 m ρ c (Proc.devRef .tc main_v74)) (m ((c.tc : Thread nD τ).loc main_arg6)) (W9 m ρ c (Proc.devRef .tc main_v77)) (W9 m ρ c (Proc.devRef .tc main_arg8)) (W9 m ρ c (Proc.devRef .tc main_v78)) = _
  rw [G_main_v67 m ρ c, G_main_v74 m ρ c, G_main_v77 m ρ c, G_main_arg8 m ρ c, G_main_v78 m ρ c, rowCast64, rowCast1]
  rfl

theorem H_main_v60 : W10 m ρ c (Proc.devRef .tc main_v60) = (Cert.ReferenceIdeal.ReadP.val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) :=
  (W10_of_ne m ρ c main_v60 (by decide)).trans (G_main_v60 m ρ c)

/-! ## The results -/

theorem I_main_v80 : W11 m ρ c (Proc.devRef .tc main_v80) = (Cert.ReferenceIdeal.ReadP.val_main_v96 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) := by
  show StableHlo.after hostOps4 (W10 m ρ c) (Proc.devRef .tc main_v80) = _
  dsimp only [hostOps4]
  after_results_simp
  rw [H_main_v79 m ρ c]
  rfl

theorem I_main_v60 : W11 m ρ c (Proc.devRef .tc main_v60) = (Cert.ReferenceIdeal.ReadP.val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  show StableHlo.after hostOps4 (W10 m ρ c) (Proc.devRef .tc main_v60) = _
  dsimp only [hostOps4]
  after_results_simp
  exact H_main_v60 m ρ c

end Cert.Bridge.Fold

end
-- ==== Proof.lean ====
/-
  A two-layer graph convolution followed by an edge classifier, computed by four row-tiled pipelines among host
  gathers and segment sums, against the same network written with host operations only.

  Both programs build the same index vectors (source and destination of every edge, with a self loop per node), the
  same degree-based normalisation column, and apply the same gathers and scatter-adds to them; they differ only in
  the dense stages.  At the extended reals each pipeline is the reference's dense stage as a whole-array function:
  x · W1; max (agg₁ + b₁, 0) · W2; max (agg₂ + b₂, 0); and the edge classifier, where the reference joins the
  gathered source and destination features into 128 columns and multiplies by the 128×64 weight while the kernel
  multiplies each half by its 64 rows of that weight and adds — a sum over 128 positions split at 64.  A change of
  float format is the identity there, a matrix product into a zero accumulator is the plain sum over k, and
  1 / (1 + exp (−x)) is one function however it is spelt.  No step needs an entry to be finite.

  The claims: the three frames are the programs' runs with the results forgotten; the idealization rewrote nothing;
  and the two idealized programs, run from memories that agree on the arguments, end with the same two results —
  the reference's stage functions of the arguments (Fold.lean reads the kernel program's buffers boundary by
  boundary as those functions).
-/
import proofs.«165775_j61100204753674_1_alg».proof.Defs
import proofs.«165775_j61100204753674_1_alg».proof.Proof.Gen.Kernel
import proofs.«165775_j61100204753674_1_alg».proof.Proof.Gen.Kernel.Skeleton
import proofs.«165775_j61100204753674_1_alg».proof.Proof.Gen.Kernel.Launch
import proofs.«165775_j61100204753674_1_alg».proof.Proof.Gen.Kernel.Points
import proofs.«165775_j61100204753674_1_alg».proof.Proof.Gen.Kernel.Frame
import proofs.«165775_j61100204753674_1_alg».proof.Proof.Gen.KernelIdeal
import proofs.«165775_j61100204753674_1_alg».proof.Proof.Gen.KernelIdeal.Skeleton
import proofs.«165775_j61100204753674_1_alg».proof.Proof.Gen.KernelIdeal.Launch
import proofs.«165775_j61100204753674_1_alg».proof.Proof.Gen.KernelIdeal.Points
import proofs.«165775_j61100204753674_1_alg».proof.Proof.Gen.KernelIdeal.Frame
import proofs.«165775_j61100204753674_1_alg».proof.Proof.Gen.ReferenceIdeal
import proofs.«165775_j61100204753674_1_alg».proof.Proof.Gen.Pre_finite_inputs
import proofs.«165775_j61100204753674_1_alg».proof.Proof.RunP
import proofs.«165775_j61100204753674_1_alg».proof.Proof.ReadP
import proofs.«165775_j61100204753674_1_alg».proof.Proof.KRun
import proofs.«165775_j61100204753674_1_alg».proof.Proof.Fold
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- The ideal pass rewrote no operation. -/
theorem preserves : Cert.preserves_Kernel_KernelIdeal := trivial

/-- Both idealized programs end with the edge probabilities and the node embedding at the reference's stage
    functions of the (agreeing) arguments. -/
theorem algebraic : Cert.algebraic_KernelIdeal_ReferenceIdeal := by
  intro m ρ m' ρ' _ hagree
  refine ⟨fun c => Cert.ReferenceIdeal.ReadP.val_main_v96 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.ReadP.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.Bridge.Fold.I_main_v80 m ρ c), (h c).2.1.trans (Cert.Bridge.Fold.I_main_v60 m ρ c), (h c).2.2⟩)
      (Cert.KernelIdeal.RunValue.run_values (F := Ideal) m ρ)
  · refine (θ_run Cert.ReferenceIdeal.defs _ _).mono (fun r h c => ⟨?_, ?_, (h c).2.2⟩)
      (Cert.ReferenceIdeal.ValueP.run (F := Ideal) m' ρ')
    · obtain ⟨h0, h1, h2, h3, h4, h5, h6, h7, h8, h9⟩ := hagree c
      rw [(h c).1, Cert.ReferenceIdeal.ReadP.val_main_v96_eq, h0, h1, h2, h3, h4, h5, h6, h7, h8, h9]
    · obtain ⟨h0, h1, h2, h3, h4, h5, _, _, _, _⟩ := hagree c
      rw [(h c).2.1, Cert.ReferenceIdeal.ReadP.val_main_v65_eq, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
